-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576x4 : Shape := ⟨2, ![1048576, 4]⟩
abbrev S1048576x1 : Shape := ⟨2, ![1048576, 1]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S1048576x4 : S_.BroadcastsInDim S1048576x4 (![] : Fin 0 → Fin S1048576x4.rank)
  reducesTo_S1048576x4_S_d0_1 : S1048576x4.ReducesTo [0, 1] S_
  bcast_S_S1048576x1 : S_.BroadcastsInDim S1048576x1 (![] : Fin 0 → Fin S1048576x1.rank)
  reducesTo_S1048576x1_S_d0_1 : S1048576x1.ReducesTo [0, 1] S_

variable [Facts]

def fn {F : FTy → Type} [FloatOps F] (main_arg0 : FVec F S1048576x64 .f32) (main_arg1 : FVec F S1048576x4 .f32) (main_arg2 : FVec F S1048576x1 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576x4 .f32 := Host.absf main_arg1
  let main_cst_0 : FVec F S_ .f32 := constant S_ .f32 0x7F800000#32
  let main_v5 : FVec F S1048576x4 .f32 := broadcastInDim S1048576x4 ![] bcast_S_S1048576x4 main_cst_0
  let main_v6 : IVec S1048576x4 1 := cmpf .olt main_v4 main_v5
  let main_c_1 : IVec S_ 1 := constantI S_ 1 1#1
  let main_v7 : IVec S_ 1 := (fun x v => Host.reduce IntOp.andi x v reducesTo_S1048576x4_S_d0_1 h_S_) main_v6 main_c_1
  let main_v8 : IVec S_ 1 := andi main_v3 main_v7
  let main_v9 : FVec F S1048576x1 .f32 := Host.absf main_arg2
  let main_cst_2 : FVec F S_ .f32 := constant S_ .f32 0x7F800000#32
  let main_v10 : FVec F S1048576x1 .f32 := broadcastInDim S1048576x1 ![] bcast_S_S1048576x1 main_cst_2
  let main_v11 : IVec S1048576x1 1 := cmpf .olt main_v9 main_v10
  let main_c_3 : IVec S_ 1 := constantI S_ 1 1#1
  let main_v12 : IVec S_ 1 := (fun x v => Host.reduce IntOp.andi x v reducesTo_S1048576x1_S_d0_1 h_S_) main_v11 main_c_3
  let main_v13 : IVec S_ 1 := andi main_v8 main_v12
  main_v13
-- ==== Kernel.lean ====
abbrev S1048576x64 : Shape := ⟨2, ![1048576, 64]⟩
abbrev S1048576x4 : Shape := ⟨2, ![1048576, 4]⟩
abbrev S1048576x1 : Shape := ⟨2, ![1048576, 1]⟩
abbrev S2x8x128 : Shape := ⟨3, ![2, 8, 128]⟩
abbrev S8192x64 : Shape := ⟨2, ![8192, 64]⟩
abbrev S8192x4 : Shape := ⟨2, ![8192, 4]⟩
abbrev S8192x1 : Shape := ⟨2, ![8192, 1]⟩
abbrev S1x8x128 : Shape := ⟨3, ![1, 8, 128]⟩
abbrev S8192x16 : Shape := ⟨2, ![8192, 16]⟩
abbrev S8192 : Shape := ⟨1, ![8192]⟩
abbrev S1 : Shape := ⟨1, ![1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S1048576x64, .f32⟩
  | .hbm, ⟨1, _⟩ => ⟨S1048576x4, .f32⟩
  | .hbm, ⟨2, _⟩ => ⟨S1048576x1, .f32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8192x64, .f32⟩
  | .local _ .vmem, ⟨1, _⟩ => ⟨S8192x64, .f32⟩
  | .local _ .vmem, ⟨2, _⟩ => ⟨S8192x4, .f32⟩
  | .local _ .vmem, ⟨3, _⟩ => ⟨S8192x4, .f32⟩
  | .local _ .vmem, ⟨4, _⟩ => ⟨S8192x1, .f32⟩
  | .local _ .vmem, ⟨5, _⟩ => ⟨S8192x1, .f32⟩
  | .local _ .vmem, ⟨6, _⟩ => ⟨S1x8x128, .f32⟩
  | .local _ .vmem, ⟨7, _⟩ => ⟨S1x8x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S8192x64_S8192x64_0_0 : ∀ a, (![0, 0] : Fin 2 → Nat) a + S8192x64.size a ≤ S8192x64.size a
  h_S8192x64 : 0 < S8192x64.numel
  inb_S8192x4_S8192x4_0_0 : ∀ a, (![0, 0] : Fin 2 → Nat) a + S8192x4.size a ≤ S8192x4.size a
  h_S8192x4 : 0 < S8192x4.numel
  inb_S8192x1_S8192x1_0_0 : ∀ a, (![0, 0] : Fin 2 → Nat) a + S8192x1.size a ≤ S8192x1.size a
  h_S8192x1 : 0 < S8192x1.numel
  slices_S8192x64_o0_0_S8192x16 : S8192x64.Slices ![0, 0] S8192x16
  slices_S8192x4_o0_0_S8192x1 : S8192x4.Slices ![0, 0] S8192x1
  iota_S8192x16_d1_w32 : S8192x16.Iotas .tc 32 [1]
  broadcasts_S8192x1_S8192x16 : S8192x1.Broadcasts S8192x16
  shapeCasts_S8192x1_S8192x1 : S8192x1.ShapeCasts S8192x1
  reduces_S8192x16_S8192 : S8192x16.Reduces [1] S8192
  shapeCasts_S8192_S8192x1 : S8192.ShapeCasts S8192x1
  slices_S8192x64_o0_16_S8192x16 : S8192x64.Slices ![0, 16] S8192x16
  slices_S8192x4_o0_1_S8192x1 : S8192x4.Slices ![0, 1] S8192x1
  slices_S8192x64_o0_32_S8192x16 : S8192x64.Slices ![0, 32] S8192x16
  slices_S8192x4_o0_2_S8192x1 : S8192x4.Slices ![0, 2] S8192x1
  slices_S8192x64_o0_48_S8192x16 : S8192x64.Slices ![0, 48] S8192x16
  slices_S8192x4_o0_3_S8192x1 : S8192x4.Slices ![0, 3] S8192x1
  reduces_S8192x1_S1 : S8192x1.Reduces [0] S1
  shapeCasts_S1_S1x1 : S1.ShapeCasts S1x1
  shapeCasts_S1x8x128_S1x8x128 : S1x8x128.ShapeCasts S1x8x128
  inpos_S1x1_p0_0 : ∀ a, (![0, 0] : Fin 2 → Nat) a < S1x1.size a
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x4.size a ≤ S1048576x4.size a
  hwx0_1 : ∀ i : grid0.Coords, EltTy.bits .f32 = 32 ∨ (Rect.block (s := S1048576x4) S8192x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S1048576x1.size a
  hwx0_2 : ∀ i : grid0.Coords, EltTy.bits .f32 = 32 ∨ (Rect.block (s := S1048576x1) S8192x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S1048576x4 : Shape := ⟨2, ![1048576, 4]⟩
abbrev S1048576x1 : Shape := ⟨2, ![1048576, 1]⟩
abbrev S1048576x4x16 : Shape := ⟨3, ![1048576, 4, 16]⟩
abbrev S_ : Shape := ⟨0, ![]⟩
abbrev S1048576x4x1 : Shape := ⟨3, ![1048576, 4, 1]⟩
abbrev S1x1x16 : Shape := ⟨3, ![1, 1, 16]⟩

abbrev nBuf : Space → Nat
  | .hbm => 89
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x4, .f32⟩
  | .hbm, ⟨2, _⟩ => ⟨S1048576x1, .f32⟩
  | .hbm, ⟨3, _⟩ => ⟨S1048576x4x16, .f32⟩
  | .hbm, ⟨4, _⟩ => ⟨S_, .f32⟩
  | .hbm, ⟨5, _⟩ => ⟨S_, .i32⟩
  | .hbm, ⟨6, _⟩ => ⟨S_, .f32⟩
  | .hbm, ⟨7, _⟩ => ⟨S1048576x4, .f32⟩
  | .hbm, ⟨8, _⟩ => ⟨S1048576x4, .f32⟩
  | .hbm, ⟨9, _⟩ => ⟨S_, .f32⟩
  | .hbm, ⟨10, _⟩ => ⟨S1048576x4, .f32⟩
  | .hbm, ⟨11, _⟩ => ⟨S1048576x4, .f32⟩
  | .hbm, ⟨12, _⟩ => ⟨S1048576x4, .f32⟩
  | .hbm, ⟨13, _⟩ => ⟨S1048576x4, .i32⟩
  | .hbm, ⟨14, _⟩ => ⟨S_, .i32⟩
  | .hbm, ⟨15, _⟩ => ⟨S1048576x4, .i32⟩
  | .hbm, ⟨16, _⟩ => ⟨S1048576x4, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1048576x4, .i32⟩
  | .hbm, ⟨21, _⟩ => ⟨S1048576x4, .i32⟩
  | .hbm, ⟨22, _⟩ => ⟨S_, .i32⟩
  | .hbm, ⟨23, _⟩ => ⟨S1048576x4, .i32⟩
  | .hbm, ⟨24, _⟩ => ⟨S1048576x4, .i32⟩
  | .hbm, ⟨25, _⟩ => ⟨S1048576x4, .f32⟩
  | .hbm, ⟨26, _⟩ => ⟨S1048576x4, .f32⟩
  | .hbm, ⟨27, _⟩ => ⟨S_, .f32⟩
  | .hbm, ⟨28, _⟩ => ⟨S1048576x4, .f32⟩
  | .hbm, ⟨29, _⟩ => ⟨S1048576x4, .f32⟩
  | .hbm, ⟨30, _⟩ => ⟨S1048576x4x1, .i32⟩
  | .hbm, ⟨31, _⟩ => ⟨S1x1x16, .i32⟩
  | .hbm, ⟨32, _⟩ => ⟨S1048576x4x16, .i32⟩
  | .hbm, ⟨33, _⟩ => ⟨S1048576x4x16, .i32⟩
  | .hbm, ⟨34, _⟩ => ⟨S1048576x4x16, .i1⟩
  | .hbm, ⟨35, _⟩ => ⟨S1048576x4x16, .f32⟩
  | .hbm, ⟨36, _⟩ => ⟨S1048576x4x1, .i32⟩
  | .hbm, ⟨37, _⟩ => ⟨S1x1x16, .i32⟩
  | .hbm, ⟨38, _⟩ => ⟨S1048576x4x16, .i32⟩
  | .hbm, ⟨39, _⟩ => ⟨S1048576x4x16, .i32⟩
  | .hbm, ⟨40, _⟩ => ⟨S1048576x4x16, .i1⟩
  | .hbm, ⟨41, _⟩ => ⟨S1048576x4x16, .f32⟩
  | .hbm, ⟨42, _⟩ => ⟨S1048576x4x1, .f32⟩
  | .hbm, ⟨43, _⟩ => ⟨S1048576x4x16, .f32⟩
  | .hbm, ⟨44, _⟩ => ⟨S1048576x4x16, .f32⟩
  | .hbm, ⟨45, _⟩ => ⟨S1048576x4x1, .f32⟩
  | .hbm, ⟨46, _⟩ => ⟨S1048576x4x16, .f32⟩
  | .hbm, ⟨47, _⟩ => ⟨S1048576x4x16, .f32⟩
  | .hbm, ⟨48, _⟩ => ⟨S1048576x4x16, .f32⟩
  | .hbm, ⟨49, _⟩ => ⟨S_, .f32⟩
  | .hbm, ⟨50, _⟩ => ⟨S1048576x4, .f32⟩
  | .hbm, ⟨51, _⟩ => ⟨S_, .f32⟩
  | .hbm, ⟨52, _⟩ => ⟨S1048576x4, .f32⟩
  | .hbm, ⟨53, _⟩ => ⟨S1048576x4, .f32⟩
  | .hbm, ⟨54, _⟩ => ⟨S1048576x4x1, .f32⟩
  | .hbm, ⟨55, _⟩ => ⟨S1048576x4x16, .f32⟩
  | .hbm, ⟨56, _⟩ => ⟨S1048576x4x16, .f32⟩
  | .hbm, ⟨57, _⟩ => ⟨S1048576x4x16, .f32⟩
  | .hbm, ⟨58, _⟩ => ⟨S_, .f32⟩
  | .hbm, ⟨59, _⟩ => ⟨S1048576x4, .f32⟩
  | .hbm, ⟨60, _⟩ => ⟨S1048576x4x1, .f32⟩
  | .hbm, ⟨61, _⟩ => ⟨S1048576x4x1, .f32⟩
  | .hbm, ⟨62, _⟩ => ⟨S1048576x4x16, .f32⟩
  | .hbm, ⟨63, _⟩ => ⟨S1048576x4x16, .f32⟩
  | .hbm, ⟨64, _⟩ => ⟨S_, .f32⟩
  | .hbm, ⟨65, _⟩ => ⟨S1048576x4x16, .f32⟩
  | .hbm, ⟨66, _⟩ => ⟨S1048576x4x16, .i1⟩
  | .hbm, ⟨67, _⟩ => ⟨S_, .f32⟩
  | .hbm, ⟨68, _⟩ => ⟨S_, .f32⟩
  | .hbm, ⟨69, _⟩ => ⟨S1048576x4x16, .f32⟩
  | .hbm, ⟨70, _⟩ => ⟨S1048576x4x16, .f32⟩
  | .hbm, ⟨71, _⟩ => ⟨S1048576x4x16, .f32⟩
  | .hbm, ⟨72, _⟩ => ⟨S_, .f32⟩
  | .hbm, ⟨73, _⟩ => ⟨S1048576x4x16, .f32⟩
  | .hbm, ⟨74, _⟩ => ⟨S1048576x4x16, .i1⟩
  | .hbm, ⟨75, _⟩ => ⟨S1048576x4x16, .f32⟩
  | .hbm, ⟨76, _⟩ => ⟨S1048576x4x16, .f32⟩
  | .hbm, ⟨77, _⟩ => ⟨S_, .f32⟩
  | .hbm, ⟨78, _⟩ => ⟨S_, .f32⟩
  | .hbm, ⟨79, _⟩ => ⟨S1048576x4x16, .f32⟩
  | .hbm, ⟨80, _⟩ => ⟨S1048576x4x16, .f32⟩
  | .hbm, ⟨81, _⟩ => ⟨S_, .f32⟩
  | .hbm, ⟨82, _⟩ => ⟨S1048576x4, .f32⟩
  | .hbm, ⟨83, _⟩ => ⟨S1048576x4, .f32⟩
  | .hbm, ⟨84, _⟩ => ⟨S1048576x4, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v11 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_call4_cst : Ref sig .tc := ⟨.hbm, 49, rfl⟩
abbrev main_call4_v0 : Ref sig .tc := ⟨.hbm, 50, rfl⟩
abbrev main_call4_cst_0 : Ref sig .tc := ⟨.hbm, 51, rfl⟩
abbrev main_call4_v1 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_v5 : Ref sig .tc := ⟨.hbm, 56, rfl⟩
abbrev main_call4_v6 : Ref sig .tc := ⟨.hbm, 57, rfl⟩
abbrev main_call4_cst_1 : Ref sig .tc := ⟨.hbm, 58, rfl⟩
abbrev main_call4_v7 : Ref sig .tc := ⟨.hbm, 59, rfl⟩
abbrev main_call4_v8 : Ref sig .tc := ⟨.hbm, 60, rfl⟩
abbrev main_call4_v9 : Ref sig .tc := ⟨.hbm, 61, rfl⟩
abbrev main_call4_v10 : Ref sig .tc := ⟨.hbm, 62, rfl⟩
abbrev main_v20 : Ref sig .tc := ⟨.hbm, 63, rfl⟩
abbrev main_cst_4 : Ref sig .tc := ⟨.hbm, 64, rfl⟩
abbrev main_v21 : Ref sig .tc := ⟨.hbm, 65, rfl⟩
abbrev main_v22 : Ref sig .tc := ⟨.hbm, 66, rfl⟩
abbrev main_cst_5 : Ref sig .tc := ⟨.hbm, 67, rfl⟩
abbrev main_call5_v0 : Ref sig .tc := ⟨.hbm, 68, rfl⟩
abbrev main_call5_v1 : Ref sig .tc := ⟨.hbm, 69, rfl⟩
abbrev main_v23 : Ref sig .tc := ⟨.hbm, 70, rfl⟩
abbrev main_v24 : Ref sig .tc := ⟨.hbm, 71, rfl⟩
abbrev main_cst_6 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_7 : Ref sig .tc := ⟨.hbm, 77, rfl⟩
abbrev main_call6_v0 : Ref sig .tc := ⟨.hbm, 78, rfl⟩
abbrev main_call6_v1 : Ref sig .tc := ⟨.hbm, 79, rfl⟩
abbrev main_v29 : Ref sig .tc := ⟨.hbm, 80, rfl⟩
abbrev main_cst_8 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_cst_9 : Ref sig .tc := ⟨.hbm, 85, rfl⟩
abbrev main_v33 : Ref sig .tc := ⟨.hbm, 86, rfl⟩
abbrev main_cst_10 : Ref sig .tc := ⟨.hbm, 87, rfl⟩
abbrev main_v34 : Ref sig .tc := ⟨.hbm, 88, rfl⟩

abbrev nD : Nat := 1
abbrev τ : Topo := Topo.v7x

variable {F : FTy → Type} [FloatOps F]

class Facts₀ : Prop where
  shapeCasts_S1048576x64_S1048576x4x16 : S1048576x64.ShapeCasts S1048576x4x16
  bcast_S_S1048576x4 : S_.BroadcastsInDim S1048576x4 (![] : Fin 0 → Fin S1048576x4.rank)
  bcast_S1048576x4_S1048576x4x1_0_1 : S1048576x4.BroadcastsInDim S1048576x4x1 (![0, 1] : Fin 2 → Fin S1048576x4x1.rank)
  bcast_S1048576x4x1_S1048576x4x16_0_1_2 : S1048576x4x1.BroadcastsInDim S1048576x4x16 (![0, 1, 2] : Fin 3 → Fin S1048576x4x16.rank)
  bcast_S1x1x16_S1048576x4x16_0_1_2 : S1x1x16.BroadcastsInDim S1048576x4x16 (![0, 1, 2] : Fin 3 → Fin S1048576x4x16.rank)
  reducesTo_S1048576x4x16_S1048576x4_d2 : S1048576x4x16.ReducesTo [2] S1048576x4
  h_S_ : 0 < S_.numel
  bcast_S_S1048576x4x16 : S_.BroadcastsInDim S1048576x4x16 (![] : Fin 0 → Fin S1048576x4x16.rank)
  bcast_S1048576x1_S1048576x4_0_1 : S1048576x1.BroadcastsInDim S1048576x4 (![0, 1] : Fin 2 → Fin S1048576x4.rank)
  reducesTo_S1048576x4_S_d0_1 : S1048576x4.ReducesTo [0, 1] S_

variable [Facts₀]

class Facts : Prop extends Facts₀ where

variable [Facts]
-- ==== Proof.KernelStep.lean ====
/-
  What one grid step of the kernel leaves in its output block.

  The kernel walks 128 blocks of 8192 rows, 64 per core, and keeps one [1, 8, 128] output block per core in place
  over the core's 64 steps. A step computes, row by row, the four box sides' losses times the row's weight, added up
  from zero (`accCol`), sums that column over the block's rows into one number, and adds the number to every
  position of the output block. On a core's first step the block is zeroed before that.

  `sideVec` is the body's arithmetic for one side, operation for operation; `stepVec` the step's stored value as a
  function of the three input blocks and of what the output block held. The two cases' found stores are read back as
  `stepVec`: over the carried block (`out_B`), and over the zero block on a first step (`out_A`).
-/
import proofs.«110796_j13116830122188_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Step

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The target column clipped to `[0, 15]`. -/
def clipVec (tk : FVec F S8192x1 .f32) : FVec F S8192x1 .f32 :=
  minimumf (broadcast S8192x1 (Scalar.ofBits .f32 0x41700000#32)) (maximumf (broadcast S8192x1 (Scalar.ofBits .f32 0x00000000#32)) tk)
/-- Its floor, as floats and as 32-bit integers (the left bin). -/
def floorVec (tk : FVec F S8192x1 .f32) : FVec F S8192x1 .f32 := floor (clipVec tk)
def leftVec (tk : FVec F S8192x1 .f32) : IVec S8192x1 32 := fptosi 32 (floorVec tk)
/-- The mass on the right bin and on the left bin. -/
def wrVec (tk : FVec F S8192x1 .f32) : FVec F S8192x1 .f32 := subf (clipVec tk) (floorVec tk)
def wlVec (tk : FVec F S8192x1 .f32) : FVec F S8192x1 .f32 := subf (broadcast S8192x1 (Scalar.ofBits .f32 0x3F800000#32)) (wrVec tk)
/-- The right bin: the left bin plus one, clipped to `[0, 15]`. -/
def rightVec (tk : FVec F S8192x1 .f32) : IVec S8192x1 32 :=
  minsi (broadcast S8192x1 15#32) (maxsi (broadcast S8192x1 0#32) (addi (leftVec tk) (broadcast S8192x1 1#32)))
/-- The two-hot label: the left mass on the left bin plus the right mass on the right bin. -/
def tdVec (tk : FVec F S8192x1 .f32) : FVec F S8192x16 .f32 :=
  addf
    (select (cmpi .eq (iota .tc S8192x16 32 [1] iota_S8192x16_d1_w32) (broadcastTo S8192x16 (leftVec tk) broadcasts_S8192x1_S8192x16))
      (broadcastTo S8192x16 (shapeCast S8192x1 (wlVec tk) shapeCasts_S8192x1_S8192x1) broadcasts_S8192x1_S8192x16)
      (broadcast S8192x16 (Scalar.ofBits .f32 0x00000000#32)))
    (select (cmpi .eq (iota .tc S8192x16 32 [1] iota_S8192x16_d1_w32) (broadcastTo S8192x16 (rightVec tk) broadcasts_S8192x1_S8192x16))
      (broadcastTo S8192x16 (shapeCast S8192x1 (wrVec tk) shapeCasts_S8192x1_S8192x1) broadcasts_S8192x1_S8192x16)
      (broadcast S8192x16 (Scalar.ofBits .f32 0x00000000#32)))
/-- The scores shifted by their row maximum. -/
def shiftVec (p : FVec F S8192x16 .f32) : FVec F S8192x16 .f32 :=
  subf p (broadcastTo S8192x16
    (shapeCast S8192x1 (multiReduction .maximumf [1] S8192 p 0xFF800000#32 reduces_S8192x16_S8192 (.inl rfl) rfl) shapeCasts_S8192_S8192x1)
    broadcasts_S8192x1_S8192x16)
/-- `log Σ_j exp s`, row by row. -/
def lseVec (p : FVec F S8192x16 .f32) : FVec F S8192x1 .f32 :=
  log (shapeCast S8192x1 (multiReduction .add [1] S8192 (exp (shiftVec p)) 0x00000000#32 reduces_S8192x16_S8192 (.inl rfl) rfl) shapeCasts_S8192_S8192x1)
/-- `Σ_j td·s`, row by row. -/
def dotVec (p : FVec F S8192x16 .f32) (tk : FVec F S8192x1 .f32) : FVec F S8192x1 .f32 :=
  shapeCast S8192x1 (multiReduction .add [1] S8192 (mulf (tdVec tk) (shiftVec p)) 0x00000000#32 reduces_S8192x16_S8192 (.inl rfl) rfl) shapeCasts_S8192_S8192x1
/-- `x·log x` where `x > 0`, else 0. -/
def xlogxVec (x : FVec F S8192x1 .f32) : FVec F S8192x1 .f32 :=
  select (cmpf .ogt x (broadcast S8192x1 (Scalar.ofBits .f32 0x00000000#32))) (mulf x (log x)) (broadcast S8192x1 (Scalar.ofBits .f32 0x00000000#32))

/-- One box side's loss for every row of a block, from the side's sixteen score columns `p` and its target column `tk`:
    `[wl·log wl]₊ + [wr·log wr]₊ - Σ_j td·s + log Σ_j exp s`, row by row. -/
def sideVec (p : FVec F S8192x16 .f32) (tk : FVec F S8192x1 .f32) : FVec F S8192x1 .f32 :=
  addf (subf (addf (xlogxVec (wlVec tk)) (xlogxVec (wrVec tk))) (dotVec p tk)) (lseVec p)

/-- A block's rows: the four sides' losses times the row's weight, added up from zero, side 0 first. -/
def accCol (x0 : Vec F S8192x64 .f32) (x1 : Vec F S8192x4 .f32) (x2 : Vec F S8192x1 .f32) : FVec F S8192x1 .f32 :=
  addf (addf (addf (addf (broadcast S8192x1 (Scalar.ofBits .f32 0x00000000#32))
    (mulf (sideVec (extractStridedSlice S8192x16 ![0, 0] x0 slices_S8192x64_o0_0_S8192x16) (extractStridedSlice S8192x1 ![0, 0] x1 slices_S8192x4_o0_0_S8192x1)) x2))
    (mulf (sideVec (extractStridedSlice S8192x16 ![0, 16] x0 slices_S8192x64_o0_16_S8192x16) (extractStridedSlice S8192x1 ![0, 1] x1 slices_S8192x4_o0_1_S8192x1)) x2))
    (mulf (sideVec (extractStridedSlice S8192x16 ![0, 32] x0 slices_S8192x64_o0_32_S8192x16) (extractStridedSlice S8192x1 ![0, 2] x1 slices_S8192x4_o0_2_S8192x1)) x2))
    (mulf (sideVec (extractStridedSlice S8192x16 ![0, 48] x0 slices_S8192x64_o0_48_S8192x16) (extractStridedSlice S8192x1 ![0, 3] x1 slices_S8192x4_o0_3_S8192x1)) x2)

/-- What one grid step leaves in the output block that held `xo`: `xo` plus, at every position, the sum of the block's rows. -/
def stepVec (x0 : Vec F S8192x64 .f32) (x1 : Vec F S8192x4 .f32) (x2 : Vec F S8192x1 .f32) (xo : Vec F S1x8x128 .f32) : FVec F S1x8x128 .f32 :=
  addf (shapeCast S1x8x128 xo shapeCasts_S1x8x128_S1x8x128)
    (broadcast S1x8x128 (extractAt ![0, 0]
      (shapeCast S1x1 (multiReduction .add [0] S1 (accCol x0 x1 x2) 0x00000000#32 reduces_S8192x1_S1 (.inl rfl) rfl) shapeCasts_S1_S1x1)
      inpos_S1x1_p0_0))

/-- A step that is not a core's first: the output block's one covering store holds the step's value over what the block held. -/
theorem out_B (c : Dev nD) (i : grid0.Coords) (a2 : Memref sig .tc .vmem S8192x64 .f32) (h2 : a2.IsWhole)
    (a3 : Memref sig .tc .vmem S8192x4 .f32) (h3 : a3.IsWhole) (a4 : Memref sig .tc .vmem S8192x1 .f32) (h4 : a4.IsWhole)
    (a5 : Memref sig .tc .vmem S1x8x128 .f32) (h5 : a5.IsWhole) (hc : ¬cond0_0 i)
    (x0 : Vec F S8192x64 .f32) (x1 : Vec F S8192x4 .f32) (x2 : Vec F S8192x1 .f32) (xo3 : Vec F S1x8x128 .f32) :
    out0_B_3 c i a2 h2 a3 h3 a4 h4 a5 h5 hc x0 x1 x2 xo3 = stepVec x0 x1 x2 xo3 := by
  unfold out0_B_3
  rw [View.read_writes_eq_canon _ _ _ (cover0_B_3 c i a2 h2 a3 h3 a4 h4 a5 h5 hc x0 x1 x2 xo3)]
  unfold kernelRun0_B
  dsimp only
  sl_unfold_run_names
  rw [View.canon_unit_zero hz3]
  simp only [View.readAt_eq_ld, h2.read_unread, h3.read_unread, h4.read_unread, h5.read_unread,
    View.ld_unit_zero (S := S1x8x128) hz3, View.ld_unit_zero (S := S8192x64) hz2, View.ld_unit_zero (S := S8192x4) hz2,
    View.ld_unit_zero (S := S8192x1) hz2]
  rfl

/-- A core's first step: the block is zeroed first, so the step's value is taken over the zero block. -/
theorem out_A (c : Dev nD) (i : grid0.Coords) (a2 : Memref sig .tc .vmem S8192x64 .f32) (h2 : a2.IsWhole)
    (a3 : Memref sig .tc .vmem S8192x4 .f32) (h3 : a3.IsWhole) (a4 : Memref sig .tc .vmem S8192x1 .f32) (h4 : a4.IsWhole)
    (a5 : Memref sig .tc .vmem S1x8x128 .f32) (h5 : a5.IsWhole) (hc : cond0_0 i)
    (x0 : Vec F S8192x64 .f32) (x1 : Vec F S8192x4 .f32) (x2 : Vec F S8192x1 .f32) :
    out0_A_3 c i a2 h2 a3 h3 a4 h4 a5 h5 hc x0 x1 x2
      = stepVec x0 x1 x2 (broadcast S1x8x128 (Scalar.ofBits .f32 0x00000000#32)) := by
  unfold out0_A_3
  rw [View.read_writes_eq_canon _ _ _ (cover0_A_3 c i a2 h2 a3 h3 a4 h4 a5 h5 hc x0 x1 x2)]
  unfold kernelRun0_A
  dsimp only
  sl_unfold_run_names
  rw [View.canon_cons_unit_zero (S := S1x8x128) hz3, View.readCov_unit_zero (S := S1x8x128) _ hz3]
  simp only [View.readAt_eq_ld, h2.read_unread, h3.read_unread, h4.read_unread,
    View.ld_unit_zero (S := S8192x64) hz2, View.ld_unit_zero (S := S8192x4) hz2, View.ld_unit_zero (S := S8192x1) hz2]
  rfl

end Cert.KernelIdeal.Step

end
-- ==== Proof.RowLoss.lean ====
/-
  The loss of one box side of one row, as two functions on the extended reals.

  A row holds, per box side, sixteen scores `p 0 … p 15` and a target `t`. The target is clipped to `[0, 15]`,
  `left = ⌊t⌋`, `right = min 15 (left + 1)`, and the mass is split `wl = 1 - (t - left)` on bin `left`,
  `wr = t - left` on bin `right` (the two-hot label `td`). With `s j = p j - max p` and `lse = log Σ exp (s j)`:

  * `kernelSide p t` is the closed form  `[wl·log wl]₊ + [wr·log wr]₊ - Σ_j td j · s j + lse`;
  * `referenceSide p t` is the sum       `Σ_j [td j > 0] · td j · (log td j - (s j - lse))`.

  Both are written with the float operations read at the ideal instance, exactly as the two programs spell them,
  so that each program's value at an index is one of these by unfolding alone.
-/
import Idealize.ShloMosaic.PureOps.Ideal
import Idealize.ShloMosaic.PureOps.Ideal.Laws

noncomputable section

namespace Cert.RowLoss

open Idealize.ShloMosaic

/-- The extended reals, as the ideal instance's f32. -/
abbrev E : Type := Ideal .f32

/-- The f32 words the programs name: 0, 1, 15 and -∞. -/
abbrev w0 : E := FloatOps.ofBits (F := Ideal) .f32 0x00000000#32
abbrev w1 : E := FloatOps.ofBits (F := Ideal) .f32 0x3F800000#32
abbrev w15 : E := FloatOps.ofBits (F := Ideal) .f32 0x41700000#32
abbrev wNegInf : E := FloatOps.ofBits (F := Ideal) .f32 0xFF800000#32

/-! ## The kernel's spelling -/

/-- The target clipped to `[0, 15]`. -/
def kClip (t : E) : E := FloatOps.minimumf (F := Ideal) w15 (FloatOps.maximumf (F := Ideal) w0 t)
/-- Its floor, as a float and as a 32-bit integer. -/
def kFloor (t : E) : E := FloatOps.floor (F := Ideal) (kClip t)
def kLeft (t : E) : BitVec 32 := FloatOps.fptosi (F := Ideal) 32 (kFloor t)
/-- The mass on the right bin and on the left bin. -/
def kWr (t : E) : E := FloatOps.subf (F := Ideal) (kClip t) (kFloor t)
def kWl (t : E) : E := FloatOps.subf (F := Ideal) w1 (kWr t)
/-- The right bin: `left + 1` clipped to `[0, 15]`. -/
def kRight (t : E) : BitVec 32 := IntOp.minsi 15#32 (IntOp.maxsi 0#32 (IntOp.addi (kLeft t) 1#32))
/-- The two-hot label at bin `j`. -/
def kTd (t : E) (j : Fin 16) : E :=
  FloatOps.addf (F := Ideal)
    (Scalar.select (IntOp.cmpi .eq (BitVec.ofNat 32 j.val) (kLeft t)) (kWl t) w0)
    (Scalar.select (IntOp.cmpi .eq (BitVec.ofNat 32 j.val) (kRight t)) (kWr t) w0)
/-- The largest score, a fold of `max` from -∞. -/
def kMax (p : Fin 16 → E) : E := (Finset.univ : Finset (Fin 16)).fold max wNegInf p
/-- The scores shifted by their maximum. -/
def kShift (p : Fin 16 → E) (j : Fin 16) : E := FloatOps.subf (F := Ideal) (p j) (kMax p)
/-- `log Σ exp (s j)`. -/
def kLse (p : Fin 16 → E) : E := FloatOps.log (F := Ideal) (∑ j : Fin 16, FloatOps.exp (F := Ideal) (kShift p j))
/-- `Σ_j td j · s j`. -/
def kDot (p : Fin 16 → E) (t : E) : E := ∑ j : Fin 16, FloatOps.mulf (F := Ideal) (kTd t j) (kShift p j)
/-- `x · log x` where `x > 0`, else `0`. -/
def kXlogx (x : E) : E :=
  Scalar.select (FloatOps.cmpf (F := Ideal) .ogt x w0) (FloatOps.mulf (F := Ideal) x (FloatOps.log (F := Ideal) x)) w0
/-- The closed form of one side's loss. -/
def kernelSide (p : Fin 16 → E) (t : E) : E :=
  FloatOps.addf (F := Ideal)
    (FloatOps.subf (F := Ideal) (FloatOps.addf (F := Ideal) (kXlogx (kWl t)) (kXlogx (kWr t))) (kDot p t))
    (kLse p)

/-! ## The reference's spelling -/

def rClip (t : E) : E :=
  FloatOps.minimumf (F := Ideal) (FloatOps.sitofp (F := Ideal) .f32 (15#32 : BitVec 32)) (FloatOps.maximumf (F := Ideal) w0 t)
def rFloor (t : E) : E := FloatOps.hostUnary (F := Ideal) .floor (rClip t)
def rLeft (t : E) : BitVec 32 := FloatOps.fptosi (F := Ideal) 32 (rFloor t)
def rRight (t : E) : BitVec 32 := IntOp.minsi 15#32 (IntOp.maxsi 0#32 (IntOp.addi (rLeft t) 1#32))
def rWr (t : E) : E := FloatOps.subf (F := Ideal) (rClip t) (FloatOps.sitofp (F := Ideal) .f32 (rLeft t))
def rWl (t : E) : E := FloatOps.subf (F := Ideal) w1 (rWr t)
/-- The two-hot label at bin `j`, from the two one-hot vectors. -/
def rTd (t : E) (j : Fin 16) : E :=
  FloatOps.addf (F := Ideal)
    (FloatOps.mulf (F := Ideal) (FloatOps.uitofp (F := Ideal) .f32 (IntOp.cmpi .eq (rLeft t) (BitVec.ofNat 32 j.val))) (rWl t))
    (FloatOps.mulf (F := Ideal) (FloatOps.uitofp (F := Ideal) .f32 (IntOp.cmpi .eq (rRight t) (BitVec.ofNat 32 j.val))) (rWr t))
/-- The largest score: the fold of `max` from -∞, joined once more with -∞. -/
def rMax (p : Fin 16 → E) : E :=
  FloatOps.maximumf (F := Ideal) wNegInf ((Finset.univ : Finset (Fin 16)).fold (FloatOps.maximumf (F := Ideal)) wNegInf p)
def rShift (p : Fin 16 → E) (j : Fin 16) : E := FloatOps.subf (F := Ideal) (p j) (rMax p)
def rLse (p : Fin 16 → E) : E :=
  FloatOps.hostUnary (F := Ideal) .log (w0 + ∑ j : Fin 16, FloatOps.hostUnary (F := Ideal) .exp (rShift p j))
/-- The log-probability of bin `j`. -/
def rLogp (p : Fin 16 → E) (j : Fin 16) : E := FloatOps.subf (F := Ideal) (rShift p j) (rLse p)
/-- One bin's term `[td > 0] · td · (log td - logp)`. -/
def rTerm (p : Fin 16 → E) (t : E) (j : Fin 16) : E :=
  Scalar.select (FloatOps.cmpf (F := Ideal) .ogt (rTd t j) w0)
    (FloatOps.mulf (F := Ideal) (rTd t j)
      (FloatOps.subf (F := Ideal)
        (FloatOps.hostUnary (F := Ideal) .log (Scalar.select (FloatOps.cmpf (F := Ideal) .ogt (rTd t j) w0) (rTd t j) w1))
        (rLogp p j)))
    w0
/-- The sum over the bins, from 0. -/
def referenceSide (p : Fin 16 → E) (t : E) : E := w0 + ∑ j : Fin 16, rTerm p t j

end Cert.RowLoss

end
-- ==== Proof.LossSpec.lean ====
/-
  The whole loss as a function of the three argument arrays, in the two arrangements the programs compute it in.

  `pred` is `[1048576, 64]`: row `n` holds four box sides of sixteen scores, side `k` in columns `16k … 16k+15`;
  `target` is `[1048576, 4]`, `weight` is `[1048576, 1]`. One cell is a side's loss times the row's weight.

  * `refLoss`: the sum of all `1048576 × 4` cells (from 0), divided by `2^22`.
  * `kernelLoss`: rows are cut into 128 blocks of 8192; a row's four cells are added up from 0; a block is the sum of
    its rows; each of the two cores adds its 64 consecutive blocks to an accumulator that starts at 0; the two
    accumulators are added (from 0) and divided by `2^22`.
-/
import Idealize.ShloMosaic.Lib.ValueIdx
import proofs.«110796_j13116830122188_2_alg».proof.Proof.RowLoss

noncomputable section

namespace Cert.LossSpec

open Idealize.ShloMosaic Idealize.ShloMosaic.ValueIdx Cert.RowLoss

/-- The three arrays. -/
abbrev Pred : Type := (⟨2, ![1048576, 64]⟩ : Shape).Idx → E
abbrev Target : Type := (⟨2, ![1048576, 4]⟩ : Shape).Idx → E
abbrev Weight : Type := (⟨2, ![1048576, 1]⟩ : Shape).Idx → E

/-- Column of bin `j` of side `k`. -/
def binCol (k : Fin 4) (j : Fin 16) : Fin 64 := ⟨16 * k.val + j.val, by have := k.isLt; have := j.isLt; omega⟩

/-- The sixteen scores of side `k` of row `n`. -/
def scores (x0 : Pred) (n : Fin 1048576) (k : Fin 4) : Fin 16 → E := fun j => x0 (ix2 n (binCol k j))

/-- One cell: the loss of side `k` of row `n` (in the spelling `side`) times the row's weight. -/
def cell (side : (Fin 16 → E) → E → E) (x0 : Pred) (x1 : Target) (x2 : Weight) (n : Fin 1048576) (k : Fin 4) : E :=
  FloatOps.mulf (F := Ideal) (side (scores x0 n k) (x1 (ix2 n k))) (x2 (ix2 n (0 : Fin 1)))

/-- The divisor `2^22 = 1048576 · 4`, as both programs name it. -/
abbrev wCount : E := FloatOps.ofBits (F := Ideal) .f32 0x4A800000#32

/-- The reference's arrangement. -/
def refLoss (x0 : Pred) (x1 : Target) (x2 : Weight) : E :=
  FloatOps.hostDivf (F := Ideal)
    (w0 + ∑ i : (⟨2, ![1048576, 4]⟩ : Shape).Idx, cell referenceSide x0 x1 x2 (i 0) (i 1)) wCount

/-- Row number `n` (taken modulo the row count, so that the functions below are total on `ℕ`). -/
def rowOf (n : ℕ) : Fin 1048576 := ⟨n % 1048576, Nat.mod_lt _ (by decide)⟩

/-- A row's four cells added up from 0, left to right. -/
def rowAcc (x0 : Pred) (x1 : Target) (x2 : Weight) (n : ℕ) : E :=
  (((w0 + cell kernelSide x0 x1 x2 (rowOf n) 0) + cell kernelSide x0 x1 x2 (rowOf n) 1)
    + cell kernelSide x0 x1 x2 (rowOf n) 2) + cell kernelSide x0 x1 x2 (rowOf n) 3

/-- Block `b`: the sum of its 8192 rows. -/
def blockSum (x0 : Pred) (x1 : Target) (x2 : Weight) (b : ℕ) : E :=
  ∑ r : Fin 8192, rowAcc x0 x1 x2 (b * 8192 + r.val)

/-- The accumulator of the core whose first block is `base`, after its steps `0 … j`. -/
def coreAcc (x0 : Pred) (x1 : Target) (x2 : Weight) (base : ℕ) : ℕ → E
  | 0 => w0 + blockSum x0 x1 x2 base
  | j + 1 => coreAcc x0 x1 x2 base j + blockSum x0 x1 x2 (base + (j + 1))

/-- The kernel's arrangement. -/
def kernelLoss (x0 : Pred) (x1 : Target) (x2 : Weight) : E :=
  FloatOps.hostDivf (F := Ideal)
    (w0 + ∑ c : Fin 2, coreAcc x0 x1 x2 (c.val * 64) 63) wCount

end Cert.LossSpec

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.StepAt.lean ====
/-
  One grid step read at an index, at the ideal instance.

  A block holds 8192 rows. The step's stored value at every position of the output block is what the block held plus
  the sum over the block's rows of the row's four weighted side losses; a side's loss at row `r` is the scalar
  closed form `Cert.RowLoss.kernelSide` of the row's sixteen scores and its target: every vector operation of the
  body is pointwise in the row, a lane reduction is a sum (or a maximum) over the sixteen bins of that row, and the
  keepdims columns and broadcasts only re-lay one value per row.
-/
import proofs.«110796_j13116830122188_2_alg».proof.Proof.KernelStep
import proofs.«110796_j13116830122188_2_alg».proof.Proof.LossSpec
import proofs.«110796_j13116830122188_2_alg».proof.Proof.LibColumn
import proofs.«110796_j13116830122188_2_alg».proof.Proof.LibLayout
import Idealize.ShloMosaic.PureOps.Ideal.Laws
import Idealize.ShloMosaic.Lib.ValueIdx
import Idealize.ShloMosaic.Lib.Pipeline.Value

noncomputable section

open Idealize.ShloMosaic Idealize.ShloMosaic.TcCoe Idealize.ShloMosaic.ValueIdx

namespace Cert.KernelIdeal.Step

open Cert.KernelIdeal Cert.KernelIdeal.Gen Cert.RowLoss

/-! ## The layout and lane operations of a block, read at row `r` -/

section Row
variable (r : Fin 8192)

/-- A column broadcast along the sixteen bins: every bin of row `r` holds the column's entry of row `r`. -/
theorem bcastF (v : FVec Ideal S8192x1 .f32) (j : Fin 16) :
    broadcastTo S8192x16 v broadcasts_S8192x1_S8192x16 (ix2 r j) = v (ix2 r (0 : Fin 1)) :=
  broadcastTo_a1_ab_apply v _ r j
theorem bcastI (v : IVec S8192x1 32) (j : Fin 16) :
    broadcastTo S8192x16 v broadcasts_S8192x1_S8192x16 (ix2 r j) = v (ix2 r (0 : Fin 1)) :=
  broadcastTo_a1_ab_apply v _ r j

/-- A vector over the rows recast as a column. -/
theorem colF (v : FVec Ideal S8192 .f32) :
    shapeCast S8192x1 v shapeCasts_S8192_S8192x1 (ix2 r (0 : Fin 1)) = v (ix1 r) :=
  shapeCast_a_a1_apply v _ r 0

/-- A column recast to its own shape. -/
theorem selfF (v : FVec Ideal S8192x1 .f32) : shapeCast S8192x1 v shapeCasts_S8192x1_S8192x1 = v :=
  shapeCast_self v _

/-- The index a reduction over the bins inserts is `(r, j)`. -/
theorem lift_eq (j : Fin 16) : reduces_S8192x16_S8192.lift (ix1 r) j = ix2 r j :=
  funext fun a => Fin.ext (by match a with | ⟨0, _⟩ => rfl | ⟨1, _⟩ => rfl)

/-- A sum over the bins of row `r`. -/
theorem laneSum (src : FVec Ideal S8192x16 .f32) :
    multiReduction .add [1] S8192 src 0x00000000#32 reduces_S8192x16_S8192 (.inl rfl) rfl (ix1 r)
      = ∑ j : Fin 16, src (ix2 r j) :=
  (Ideal.multiReduction_add_single src _ reduces_S8192x16_S8192 _ _ (ix1 r)).trans
    (Finset.sum_congr rfl fun j _ => congrArg src (lift_eq r j))

/-- The maximum over the bins of row `r`, from -∞. -/
theorem laneMax (src : FVec Ideal S8192x16 .f32) :
    multiReduction .maximumf [1] S8192 src 0xFF800000#32 reduces_S8192x16_S8192 (.inl rfl) rfl (ix1 r)
      = kMax fun j => src (ix2 r j) :=
  (Ideal.multiReduction_maximumf_single src _ reduces_S8192x16_S8192 _ _ (ix1 r)).trans
    (congrArg (Finset.fold max wNegInf · Finset.univ) (funext fun j => congrArg src (lift_eq r j)))

/-- The bin number, as the kernel's iota gives it. -/
theorem iotaAt (j : Fin 16) : iota .tc S8192x16 32 [1] iota_S8192x16_d1_w32 (ix2 r j) = BitVec.ofNat 32 j.val := by
  show BitVec.ofNat 32 (0 * 16 + j.val) = _
  rw [Nat.zero_mul, Nat.zero_add]

/-! The pieces of one side's loss at row `r`: the pointwise ones read through by unfolding, the label, the shift and
the two lane sums by the lemmas above. -/

theorem wlVec_apply (tk : FVec Ideal S8192x1 .f32) : wlVec (F := Ideal) tk (ix2 r (0 : Fin 1)) = kWl (tk (ix2 r (0 : Fin 1))) := rfl
theorem wrVec_apply (tk : FVec Ideal S8192x1 .f32) : wrVec (F := Ideal) tk (ix2 r (0 : Fin 1)) = kWr (tk (ix2 r (0 : Fin 1))) := rfl
theorem leftVec_apply (tk : FVec Ideal S8192x1 .f32) : leftVec (F := Ideal) tk (ix2 r (0 : Fin 1)) = kLeft (tk (ix2 r (0 : Fin 1))) := rfl
theorem rightVec_apply (tk : FVec Ideal S8192x1 .f32) : rightVec (F := Ideal) tk (ix2 r (0 : Fin 1)) = kRight (tk (ix2 r (0 : Fin 1))) := rfl
theorem xlogxVec_apply (x : FVec Ideal S8192x1 .f32) : xlogxVec (F := Ideal) x (ix2 r (0 : Fin 1)) = kXlogx (x (ix2 r (0 : Fin 1))) := rfl

/-- The two-hot label at bin `j` of row `r`. -/
theorem tdVec_apply (tk : FVec Ideal S8192x1 .f32) (j : Fin 16) :
    tdVec (F := Ideal) tk (ix2 r j) = kTd (tk (ix2 r (0 : Fin 1))) j := by
  show FloatOps.addf (F := Ideal)
      (Scalar.select (IntOp.cmpi .eq (iota .tc S8192x16 32 [1] iota_S8192x16_d1_w32 (ix2 r j))
          (broadcastTo S8192x16 (leftVec (F := Ideal) tk) broadcasts_S8192x1_S8192x16 (ix2 r j)))
        (broadcastTo S8192x16 (shapeCast S8192x1 (wlVec (F := Ideal) tk) shapeCasts_S8192x1_S8192x1) broadcasts_S8192x1_S8192x16 (ix2 r j)) w0)
      (Scalar.select (IntOp.cmpi .eq (iota .tc S8192x16 32 [1] iota_S8192x16_d1_w32 (ix2 r j))
          (broadcastTo S8192x16 (rightVec (F := Ideal) tk) broadcasts_S8192x1_S8192x16 (ix2 r j)))
        (broadcastTo S8192x16 (shapeCast S8192x1 (wrVec (F := Ideal) tk) shapeCasts_S8192x1_S8192x1) broadcasts_S8192x1_S8192x16 (ix2 r j)) w0) = _
  rw [iotaAt, bcastI, bcastI, bcastF, bcastF, selfF, selfF]
  rfl

/-- The shifted score at bin `j` of row `r`. -/
theorem shiftVec_apply (p : FVec Ideal S8192x16 .f32) (j : Fin 16) :
    shiftVec (F := Ideal) p (ix2 r j) = kShift (fun j => p (ix2 r j)) j := by
  show FloatOps.subf (F := Ideal) (p (ix2 r j))
      (broadcastTo S8192x16 (shapeCast S8192x1 (multiReduction .maximumf [1] S8192 p 0xFF800000#32 reduces_S8192x16_S8192 (.inl rfl) rfl)
        shapeCasts_S8192_S8192x1) broadcasts_S8192x1_S8192x16 (ix2 r j)) = _
  rw [bcastF, colF, laneMax]
  rfl

/-- `log Σ_j exp s` at row `r`. -/
theorem lseVec_apply (p : FVec Ideal S8192x16 .f32) :
    lseVec (F := Ideal) p (ix2 r (0 : Fin 1)) = kLse (fun j => p (ix2 r j)) := by
  show FloatOps.log (F := Ideal) (shapeCast S8192x1 (multiReduction .add [1] S8192 (exp (shiftVec (F := Ideal) p)) 0x00000000#32
      reduces_S8192x16_S8192 (.inl rfl) rfl) shapeCasts_S8192_S8192x1 (ix2 r (0 : Fin 1))) = _
  rw [colF, laneSum]
  refine congrArg (FloatOps.log (F := Ideal)) (Finset.sum_congr rfl fun j _ => ?_)
  exact congrArg (FloatOps.exp (F := Ideal)) (shiftVec_apply r p j)

/-- `Σ_j td·s` at row `r`. -/
theorem dotVec_apply (p : FVec Ideal S8192x16 .f32) (tk : FVec Ideal S8192x1 .f32) :
    dotVec (F := Ideal) p tk (ix2 r (0 : Fin 1)) = kDot (fun j => p (ix2 r j)) (tk (ix2 r (0 : Fin 1))) := by
  show shapeCast S8192x1 (multiReduction .add [1] S8192 (mulf (tdVec (F := Ideal) tk) (shiftVec (F := Ideal) p)) 0x00000000#32
      reduces_S8192x16_S8192 (.inl rfl) rfl) shapeCasts_S8192_S8192x1 (ix2 r (0 : Fin 1)) = _
  rw [colF, laneSum]
  refine Finset.sum_congr rfl fun j _ => ?_
  show FloatOps.mulf (F := Ideal) (tdVec (F := Ideal) tk (ix2 r j)) (shiftVec (F := Ideal) p (ix2 r j)) = _
  rw [tdVec_apply, shiftVec_apply]

/-- ONE SIDE AT ROW `r`: the vector form is the scalar closed form of the row's scores and target. -/
theorem sideVec_apply (p : FVec Ideal S8192x16 .f32) (tk : FVec Ideal S8192x1 .f32) :
    sideVec (F := Ideal) p tk (ix2 r (0 : Fin 1)) = kernelSide (fun j => p (ix2 r j)) (tk (ix2 r (0 : Fin 1))) := by
  show FloatOps.addf (F := Ideal) (FloatOps.subf (F := Ideal)
      (FloatOps.addf (F := Ideal) (xlogxVec (F := Ideal) (wlVec (F := Ideal) tk) (ix2 r (0 : Fin 1))) (xlogxVec (F := Ideal) (wrVec (F := Ideal) tk) (ix2 r (0 : Fin 1))))
      (dotVec (F := Ideal) p tk (ix2 r (0 : Fin 1)))) (lseVec (F := Ideal) p (ix2 r (0 : Fin 1))) = _
  rw [dotVec_apply, lseVec_apply]
  rfl

/-- The sixteen score columns of side `k`, cut out of the block: bin `j` of row `r` is column `16k + j`. -/
theorem sliceP_apply (x0 : Vec Ideal S8192x64 .f32) (off : Fin 2 → Nat) (h : S8192x64.Slices off S8192x16) (k : Fin 4)
    (hoff : off = ![0, 16 * k.val]) (j : Fin 16) :
    extractStridedSlice S8192x16 off x0 h (ix2 r j) = x0 (ix2 r (Cert.LossSpec.binCol k j)) := by
  subst hoff
  refine extractStridedSlice_apply _ x0 h (ix2 r j) (ix2 r (Cert.LossSpec.binCol k j)) fun a => ?_
  match a with
  | ⟨0, _⟩ => show r.val = 0 + r.val; omega
  | ⟨1, _⟩ => rfl

/-- The target column of side `k`, cut out of the block. -/
theorem sliceT_apply (x1 : Vec Ideal S8192x4 .f32) (off : Fin 2 → Nat) (h : S8192x4.Slices off S8192x1) (k : Fin 4)
    (hoff : off = ![0, k.val]) :
    extractStridedSlice S8192x1 off x1 h (ix2 r (0 : Fin 1)) = x1 (ix2 r k) := by
  subst hoff
  refine extractStridedSlice_apply _ x1 h (ix2 r (0 : Fin 1)) (ix2 r k) fun a => ?_
  match a with
  | ⟨0, _⟩ => show r.val = 0 + r.val; omega
  | ⟨1, _⟩ => show k.val = k.val + 0; omega

/-- One side's weighted loss at row `r` of a block whose row `r` is row `n` of the arrays: the array's cell. -/
theorem side_cell (b0 : Vec Ideal S8192x64 .f32) (b1 : Vec Ideal S8192x4 .f32) (b2 : Vec Ideal S8192x1 .f32)
    (X0 : Cert.LossSpec.Pred) (X1 : Cert.LossSpec.Target) (X2 : Cert.LossSpec.Weight) (n : Fin 1048576)
    (h0 : ∀ col, b0 (ix2 r col) = X0 (ix2 n col)) (h1 : ∀ k, b1 (ix2 r k) = X1 (ix2 n k))
    (h2 : b2 (ix2 r (0 : Fin 1)) = X2 (ix2 n (0 : Fin 1)))
    (k : Fin 4) (offp : Fin 2 → Nat) (hp : S8192x64.Slices offp S8192x16) (hoffp : offp = ![0, 16 * k.val])
    (offt : Fin 2 → Nat) (ht : S8192x4.Slices offt S8192x1) (hofft : offt = ![0, k.val]) :
    FloatOps.mulf (F := Ideal) (sideVec (F := Ideal) (extractStridedSlice S8192x16 offp b0 hp) (extractStridedSlice S8192x1 offt b1 ht) (ix2 r (0 : Fin 1)))
        (b2 (ix2 r (0 : Fin 1)))
      = Cert.LossSpec.cell kernelSide X0 X1 X2 n k := by
  rw [sideVec_apply, sliceT_apply r b1 offt ht k hofft, h1, h2]
  have e : (fun j => extractStridedSlice S8192x16 offp b0 hp (ix2 r j)) = Cert.LossSpec.scores X0 n k :=
    funext fun j => (sliceP_apply r b0 offp hp k hoffp j).trans (h0 _)
  rw [e]
  rfl

/-- A ROW OF A BLOCK: its four weighted sides added from zero are the array row's four cells added from zero. -/
theorem accCol_row (b0 : Vec Ideal S8192x64 .f32) (b1 : Vec Ideal S8192x4 .f32) (b2 : Vec Ideal S8192x1 .f32)
    (X0 : Cert.LossSpec.Pred) (X1 : Cert.LossSpec.Target) (X2 : Cert.LossSpec.Weight) (N : ℕ)
    (h0 : ∀ col, b0 (ix2 r col) = X0 (ix2 (Cert.LossSpec.rowOf N) col)) (h1 : ∀ k, b1 (ix2 r k) = X1 (ix2 (Cert.LossSpec.rowOf N) k))
    (h2 : b2 (ix2 r (0 : Fin 1)) = X2 (ix2 (Cert.LossSpec.rowOf N) (0 : Fin 1))) :
    accCol (F := Ideal) b0 b1 b2 (ix2 r (0 : Fin 1)) = Cert.LossSpec.rowAcc X0 X1 X2 N := by
  unfold accCol Cert.LossSpec.rowAcc
  show FloatOps.addf (F := Ideal) (FloatOps.addf (F := Ideal) (FloatOps.addf (F := Ideal) (FloatOps.addf (F := Ideal) w0
      (FloatOps.mulf (F := Ideal) (sideVec (F := Ideal) _ _ (ix2 r (0 : Fin 1))) (b2 (ix2 r (0 : Fin 1)))))
      (FloatOps.mulf (F := Ideal) (sideVec (F := Ideal) _ _ (ix2 r (0 : Fin 1))) (b2 (ix2 r (0 : Fin 1)))))
      (FloatOps.mulf (F := Ideal) (sideVec (F := Ideal) _ _ (ix2 r (0 : Fin 1))) (b2 (ix2 r (0 : Fin 1)))))
      (FloatOps.mulf (F := Ideal) (sideVec (F := Ideal) _ _ (ix2 r (0 : Fin 1))) (b2 (ix2 r (0 : Fin 1)))) = _
  rw [side_cell r b0 b1 b2 X0 X1 X2 _ h0 h1 h2 0 ![0, 0] slices_S8192x64_o0_0_S8192x16 rfl ![0, 0] slices_S8192x4_o0_0_S8192x1 rfl,
    side_cell r b0 b1 b2 X0 X1 X2 _ h0 h1 h2 1 ![0, 16] slices_S8192x64_o0_16_S8192x16 rfl ![0, 1] slices_S8192x4_o0_1_S8192x1 rfl,
    side_cell r b0 b1 b2 X0 X1 X2 _ h0 h1 h2 2 ![0, 32] slices_S8192x64_o0_32_S8192x16 rfl ![0, 2] slices_S8192x4_o0_2_S8192x1 rfl,
    side_cell r b0 b1 b2 X0 X1 X2 _ h0 h1 h2 3 ![0, 48] slices_S8192x64_o0_48_S8192x16 rfl ![0, 3] slices_S8192x4_o0_3_S8192x1 rfl]
  rfl

end Row

/-- The index a reduction over a block's rows inserts is `(r, 0)`. -/
theorem lift_rows_eq (r : Fin 8192) : reduces_S8192x1_S1.lift (ix1 (0 : Fin 1)) r = ix2 r (0 : Fin 1) :=
  funext fun a => Fin.ext (by match a with | ⟨0, _⟩ => rfl | ⟨1, _⟩ => rfl)

/-- ONE STEP AT A POSITION: what the output block held there, plus the sum of the block's accumulated rows. -/
theorem stepVec_apply (x0 : Vec Ideal S8192x64 .f32) (x1 : Vec Ideal S8192x4 .f32) (x2 : Vec Ideal S8192x1 .f32)
    (xo : Vec Ideal S1x8x128 .f32) (y : S1x8x128.Idx) :
    stepVec (F := Ideal) x0 x1 x2 xo y = xo y + ∑ r : Fin 8192, accCol (F := Ideal) x0 x1 x2 (ix2 r (0 : Fin 1)) := by
  unfold stepVec
  rw [shapeCast_self]
  show xo y + shapeCast S1x1 _ shapeCasts_S1_S1x1 (fun a => ⟨(![0, 0] : Fin 2 → Nat) a, inpos_S1x1_p0_0 a⟩) = _
  refine congrArg (xo y + ·) ?_
  rw [shapeCast_apply _ shapeCasts_S1_S1x1 _ (ix1 (0 : Fin 1)) (by rw [Shape.rowMajor_val_one, Shape.rowMajor_val_two]; rfl)]
  refine (Ideal.multiReduction_add_single _ _ reduces_S8192x1_S1 _ _ (ix1 (0 : Fin 1))).trans ?_
  exact Finset.sum_congr rfl fun r _ => congrArg _ (lift_rows_eq r)

end Cert.KernelIdeal.Step

end
-- ==== Proof.KernelValue.lean ====
/-
  The kernel's run, read: its result is `Cert.LossSpec.kernelLoss` of the three argument arrays.

  Block `t` of an input window is rows `8192·t … 8192·t + 8191` of its array (the index maps are `64·core + step`,
  which is the point's own number). So one step adds to the output block the sum `blockSum t` of those rows'
  accumulated cells, and by induction on the point the output block of core `t / 64` holds, after point `t`, the
  accumulator `coreAcc (64·(t/64)) (t % 64)` at every position. The block is written back after a core's last step
  (points 63 and 127), to slab `t / 64` of the [2, 8, 128] result array; the two slabs cover it. The host then takes
  entry (c, 0, 0) of each slab, adds the two from 0 and divides by 2^22.
-/
import proofs.«110796_j13116830122188_2_alg».proof.Proof.StepAt
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Loss

open Cert.KernelIdeal Cert.KernelIdeal.Gen Cert.KernelIdeal.Step Cert.RowLoss Cert.LossSpec

variable (m : (ℓ : Loc nD τ sig) → Buf (Elt Ideal) ℓ) (ρ : Dev nD → PrngReg)

/-- The three argument arrays as the run finds them. -/
abbrev X0 (c : Dev nD) : Pred := m ((c : Thread nD τ).loc main_arg0)
abbrev X1 (c : Dev nD) : Target := m ((c : Thread nD τ).loc main_arg1)
abbrev X2 (c : Dev nD) : Weight := m ((c : Thread nD τ).loc main_arg2)

/-- The printed index maps, decided over the grid: an input's block number is the point's number, the output's is the core. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val / 64 ∧ win0_3.index t (1 : Fin 3) = 0 ∧ win0_3.index t (2 : Fin 3) = 0 :=
  (by decide +kernel : ∀ t : Fin grid0.N, _)

/-- Row `r` of block `t` is row `8192·t + r` of the array (no wrap: `t < 128`). -/
theorem rowOf_block (t : Fin cfg0.N) (r : Fin 8192) : (rowOf (t.val * 8192 + r.val)).val = t.val * 8192 + r.val := by
  have hN : t.val < 128 := lt_of_lt_of_eq t.isLt (show cfg0.N = 128 from N_0)
  have hr := r.isLt
  show (t.val * 8192 + r.val) % 1048576 = _
  exact Nat.mod_eq_of_lt (by omega)

theorem iblk0_apply (c : Dev nD) (t : Fin cfg0.N) (r : Fin 8192) (col : Fin 64) :
    (iblk m c 0 t : Vec Ideal S8192x64 .f32) (ix2 r col) = X0 m c (ix2 (rowOf (t.val * 8192 + r.val)) col) := by
  obtain ⟨e0, e1, -⟩ := idx_facts t
  unfold iblk
  rw [View.read_apply]
  show V m c main_arg0 _ = m ((c : Thread nD τ).loc main_arg0) _
  unfold V
  refine congrArg (m ((c : Thread nD τ).loc main_arg0)) (funext fun a => Fin.ext ?_)
  match a with
  | ⟨0, _⟩ => show win0_0.index t (0 : Fin 2) * 8192 + 1 * r.val = (rowOf (t.val * 8192 + r.val)).val; rw [rowOf_block, e0]; omega
  | ⟨1, _⟩ => show win0_0.index t (1 : Fin 2) * 64 + 1 * col.val = col.val; rw [e1]; omega

theorem iblk1_apply (c : Dev nD) (t : Fin cfg0.N) (r : Fin 8192) (k : Fin 4) :
    (iblk m c 1 t : Vec Ideal S8192x4 .f32) (ix2 r k) = X1 m c (ix2 (rowOf (t.val * 8192 + r.val)) k) := by
  obtain ⟨-, -, e0, e1, -⟩ := idx_facts t
  unfold iblk
  rw [View.read_apply]
  show V m c main_arg1 _ = m ((c : Thread nD τ).loc main_arg1) _
  unfold V
  refine congrArg (m ((c : Thread nD τ).loc main_arg1)) (funext fun a => Fin.ext ?_)
  match a with
  | ⟨0, _⟩ => show win0_1.index t (0 : Fin 2) * 8192 + 1 * r.val = (rowOf (t.val * 8192 + r.val)).val; rw [rowOf_block, e0]; omega
  | ⟨1, _⟩ => show win0_1.index t (1 : Fin 2) * 4 + 1 * k.val = k.val; rw [e1]; omega

theorem iblk2_apply (c : Dev nD) (t : Fin cfg0.N) (r : Fin 8192) :
    (iblk m c 2 t : Vec Ideal S8192x1 .f32) (ix2 r (0 : Fin 1)) = X2 m c (ix2 (rowOf (t.val * 8192 + r.val)) (0 : Fin 1)) := by
  obtain ⟨-, -, -, -, e0, e1, -⟩ := idx_facts t
  unfold iblk
  rw [View.read_apply]
  show V m c main_arg2 _ = m ((c : Thread nD τ).loc main_arg2) _
  unfold V
  refine congrArg (m ((c : Thread nD τ).loc main_arg2)) (funext fun a => Fin.ext ?_)
  match a with
  | ⟨0, _⟩ => show win0_2.index t (0 : Fin 2) * 8192 + 1 * r.val = (rowOf (t.val * 8192 + r.val)).val; rw [rowOf_block, e0]; omega
  | ⟨1, _⟩ => show win0_2.index t (1 : Fin 2) * 1 + 1 * 0 = 0; rw [e1]

/-- The rows of block `t`, accumulated and summed, are `blockSum t` of the arrays. -/
theorem block_rows (c : Dev nD) (t : Fin cfg0.N) :
    ∑ r : Fin 8192, accCol (F := Ideal) (iblk m c 0 t) (iblk m c 1 t) (iblk m c 2 t) (ix2 r (0 : Fin 1))
      = blockSum (X0 m c) (X1 m c) (X2 m c) t.val := by
  show _ = ∑ r : Fin 8192, rowAcc (X0 m c) (X1 m c) (X2 m c) (t.val * 8192 + r.val)
  exact Finset.sum_congr rfl fun r _ =>
    accCol_row r (iblk m c 0 t : Vec Ideal S8192x64 .f32) (iblk m c 1 t : Vec Ideal S8192x4 .f32) (iblk m c 2 t : Vec Ideal S8192x1 .f32)
      (X0 m c) (X1 m c) (X2 m c) (t.val * 8192 + r.val)
      (fun col => iblk0_apply m c t r col) (fun k => iblk1_apply m c t r k) (iblk2_apply m c t r)

/-- THE ACCUMULATOR: after point `n` the output block holds, at every position, its core's accumulator after step `n % 64`. -/
theorem outsAt_eq (c : Dev nD) : ∀ (n : ℕ) (hn : n < cfg0.N),
    outsAt0 m c n hn = fun _ => coreAcc (X0 m c) (X1 m c) (X2 m c) (n / 64 * 64) (n % 64)
  | 0, hn => by
    rw [outsAt0_A m c ⟨0, hn⟩ rfl, out_A]
    funext y
    rw [stepVec_apply, block_rows]
    rfl
  | n + 1, hn => by
    by_cases h0 : (n + 1) % 64 = 0
    · rw [outsAt0_A m c ⟨n + 1, hn⟩ h0, out_A]
      funext y
      rw [stepVec_apply, block_rows]
      have e1 : (n + 1) / 64 * 64 = n + 1 := by omega
      show w0 + blockSum _ _ _ (n + 1) = coreAcc _ _ _ ((n + 1) / 64 * 64) ((n + 1) % 64)
      rw [e1, h0]
      rfl
    · rw [outsAt0_B m c ⟨n + 1, hn⟩ h0, out_B]
      funext y
      rw [stepVec_apply, block_rows]
      show outsAt0 m c n _ y + blockSum _ _ _ (n + 1) = coreAcc _ _ _ ((n + 1) / 64 * 64) ((n + 1) % 64)
      rw [outsAt_eq c n]
      have e1 : (n + 1) / 64 = n / 64 := by omega
      have e2 : (n + 1) % 64 = n % 64 + 1 := by omega
      have e3 : n / 64 * 64 + (n % 64 + 1) = n + 1 := by omega
      rw [e1, e2]
      show _ = coreAcc _ _ _ (n / 64 * 64) (n % 64) + blockSum _ _ _ (n / 64 * 64 + (n % 64 + 1))
      rw [e3]

/-- The result array's contents: slab `c'` holds core `c'`'s final accumulator at every position. -/
def G (c : Dev nD) : Buf (Elt Ideal) ((c : Thread nD τ).loc main_v0) :=
  fun i => coreAcc (X0 m c) (X1 m c) (X2 m c) ((i 0).val * 64) 63

/-- What a core's last point writes back is its slab of `G`. -/
theorem flushed_eq (c : Dev nD) (t : Fin cfg0.N) (hf : (cfg0.win 3).flush t = true) :
    (dats m 0 c).flushed 3 t = ((cfg0.win 3).blk t).view.read (Elt Ideal) (G m c) := by
  have h63 : t.val % 64 = 63 := (flush0_3 t).mp hf
  obtain ⟨-, -, -, -, -, -, e0, -⟩ := idx_facts t
  show (cfg0.win 3).cut (grid0.coords t) ((dats m 0 c).after 3 t) = _
  rw [after0_3, outsAt_eq]
  funext y
  rw [View.read_apply]
  show coreAcc _ _ _ (t.val / 64 * 64) (t.val % 64) = coreAcc _ _ _ ((((cfg0.win 3).blk t).view.emb y (0 : Fin 3)).val * 64) 63
  have hy : (((cfg0.win 3).blk t).view.emb y (0 : Fin 3)).val = win0_3.index t (0 : Fin 3) * 1 + 1 * (y 0).val := rfl
  have hy1 : (y 0).val < 1 := (y 0).isLt
  have hy0 : (y 0).val = 0 := by omega
  have e : (t.val / 64 * 1 + 1 * 0) * 64 = t.val / 64 * 64 := by omega
  rw [hy, hy0, e0, h63, e]

/-- An index of the result array is in point `t`'s block iff each coordinate is in the block's range. -/
theorem mem_blk (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0).slice (win0_3.rect t)).set ↔ _
  rw [View.set_slice_whole, Rect.mem_set_unit]
  exact Iff.rfl

/-- The two written-back slabs cover the result array. -/
theorem cover (i : S2x8x128.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 128 := (i 2).isLt
  let t : Fin cfg0.N := ⟨(i 0).val * 64 + 63, by rw [show cfg0.N = 128 from N_0]; omega⟩
  obtain ⟨-, -, -, -, -, -, e0, e1, e2⟩ := idx_facts t
  have ht : t.val = (i 0).val * 64 + 63 := rfl
  refine ⟨t, (flush0_3 t).mpr (by rw [ht]; omega), ?_⟩
  rw [mem_blk]
  intro a
  match a with
  | ⟨0, _⟩ => show win0_3.index t (0 : Fin 3) * 1 ≤ (i 0).val ∧ (i 0).val < win0_3.index t (0 : Fin 3) * 1 + 1; rw [e0, ht]; omega
  | ⟨1, _⟩ => show win0_3.index t (1 : Fin 3) * 8 ≤ (i 1).val ∧ (i 1).val < win0_3.index t (1 : Fin 3) * 8 + 8; rw [e1]; omega
  | ⟨2, _⟩ => show win0_3.index t (2 : Fin 3) * 128 ≤ (i 2).val ∧ (i 2).val < win0_3.index t (2 : Fin 3) * 128 + 128; rw [e2]; omega

/-- So the result array ends holding `G`. -/
theorem final3 (c : Dev nD) : (dats m 0 c).arrAt 3 cfg0.N = G m c :=
  (dats m 0 c).arrAt_eq_of_cover 3 (G m c) (flushed_eq m c) cover

/-! ## The host's tail -/

/-- A sum over the index set of a vector is the sum over its one coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _ fun i => congrArg f (eq_ix1 i)

/-- The tail on a result array `Gv`: entries (0,0,0) and (1,0,0), added from 0, over `2^22`. -/
theorem tail_read (Gv : S2x8x128.Idx → EReal) (i : S_.Idx) :
    Host.divf (F := Ideal) (Host.reduceAdd (F := Ideal)
        (shapeCast S2 (extractStridedSlice S2x1x1 ![0, 0, 0] Gv slices_S2x8x128_S2x1x1_0_0_0) shapeCasts_S2x1x1_S2)
        (constant (F := Ideal) S_ .f32 0x00000000#32) reducesTo_S2_S_d0 h_S_) (constant (F := Ideal) S_ .f32 0x4A800000#32) i
      = FloatOps.hostDivf (F := Ideal) (w0 + ∑ k : Fin 2, Gv (ix3 k (0 : Fin 8) (0 : Fin 128))) wCount := by
  show FloatOps.hostDivf (F := Ideal) (Host.reduceAdd (F := Ideal) _ _ reducesTo_S2_S_d0 h_S_ i) wCount = _
  refine congrArg (FloatOps.hostDivf (F := Ideal) · wCount) ?_
  simp only [Host.reduceAdd, Ideal.hostReduceAdd_def]
  rw [Ideal.hostReduceAdd_total reducesTo_S2_S_d0 (fun b => b.elim0), sum_idx1]
  refine congrArg (w0 + ·) (Finset.sum_congr rfl fun k _ => ?_)
  rw [shapeCast_apply _ shapeCasts_S2x1x1_S2 _ (ix3 k (0 : Fin 1) (0 : Fin 1)) (by
    rw [Shape.rowMajor_val_three, Shape.rowMajor_val_one]
    show (k.val * 1 + 0) * 1 + 0 = k.val
    omega)]
  refine extractStridedSlice_apply _ Gv _ _ (ix3 k (0 : Fin 8) (0 : Fin 128)) fun a => ?_
  match a with
  | ⟨0, _⟩ => show k.val = 0 + k.val; omega
  | ⟨1, _⟩ => rfl
  | ⟨2, _⟩ => rfl

/-- The program's result: the tail applied to what the region leaves in the result array. -/
theorem tail_value (c : Dev nD) :
    Pipeline.afterTail₀ cfgs (dats m) 0 (V0 m) [hostOps1] c main_v4 = fun _ => kernelLoss (X0 m c) (X1 m c) (X2 m c) := by
  have eG : Pipeline.withArrays spec0 c (V0 m c) (fun w => (dats m 0 c).arrAt w cfg0.N) (Proc.devRef .tc main_v0) = G m c :=
    (Pipeline.withArrays_arr spec0 launch0.win.arr_inj c _ _ 3).trans (final3 m c)
  unfold Pipeline.afterTail₀
  show StableHlo.after hostOps1 _ (Proc.devRef .tc main_v4) = _
  after_results
  funext i
  rw [eG]
  exact tail_read (G m c) i

/-! ## The run, read -/

/-- Every weakly fair execution of the kernel's program terminates with its result at `kernelLoss` of the arguments,
    the arguments unchanged. -/
theorem run : θ_run defs (onTc (τ := τ) (main (F := Ideal))) ⟨m, fun _ => 0, ρ⟩ fun r => ∀ c : Dev nD,
      r.2.mem ((c : Thread nD τ).loc main_v4) = (fun _ => kernelLoss (X0 m c) (X1 m c) (X2 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v4 (Pipeline.mem_restRefs_of main_v4 rfl (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Loss

end
-- ==== Proof.LibTypedRef.lean ====
/-
  A typed reference's two transports cancel.

  A module-local function's operations are stated over references that carry the type of the tensor value they hold;
  a value is moved to the buffer's own type when it is written and back when it is read. The two moves are transports
  along one equation and its inverse, so a value written and read back is itself — for every typed reference, whatever
  the signature. General: nothing here depends on a particular program; library import only.
-/
import Idealize.ShloMosaic.Lib.StableHlo

namespace Cert.TypedRef

open Idealize.ShloMosaic Idealize.ShloMosaic.StableHlo

/-- A value moved to a typed reference's buffer type and back is itself. -/
theorem ofBuf_toBuf {sig : RefSig} {T : BufTy} {Val : EltTy → Type} (x : TRef sig T) (v : T.Contents Val) :
    x.ofBuf (x.toBuf v) = v := by
  simp only [TRef.ofBuf, TRef.toBuf, cast_cast, cast_eq]

end Cert.TypedRef
-- ==== Proof.RefSide.lean ====
/-
  The reference program read at an index.

  Each operation of the reference's @main, read at an index, is one of the functions of Cert.RowLoss applied to the
  sixteen scores of one box side of one row and to that side's target; the sum over the sixteen bins is
  referenceSide, the product with the row's weight is one cell, and the sum of all cells divided by 2^22 is
  Cert.LossSpec.refLoss.

  An index of the [1048576, 4, 16] arrays is written (j, k): j an index of [1048576, 4] (row and side), k a bin.
-/
import proofs.«110796_j13116830122188_2_alg».proof.Proof.RefReadPatched
import proofs.«110796_j13116830122188_2_alg».proof.Proof.LossSpec
import Idealize.ShloMosaic.Lib.ValueIdx
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx
open Cert.RowLoss Cert.LossSpec

/-! ## Indices -/

/-- The index (j, k) of the [1048576, 4, 16] arrays. -/
abbrev cellIdx (j : S1048576x4.Idx) (k : Fin 16) : S1048576x4x16.Idx := idx_main_v30 j k

/-- Forgetting the bin of (j, k), through the [1048576, 4, 1] arrays, gives j back. -/
theorem row_of_cellIdx (j : S1048576x4.Idx) (k : Fin 16) : idx_main_v13 (idx_main_v14 (cellIdx j k)) = j :=
  funext fun a => Fin.ext (by match a with | ⟨0, _⟩ => rfl | ⟨1, _⟩ => rfl)

/-- The reshape [1048576, 64] → [1048576, 4, 16] reads (j, k) at row j 0, column 16 · (j 1) + k. -/
theorem reshape_cellIdx (j : S1048576x4.Idx) (k : Fin 16) : idx_main_v0 (cellIdx j k) = ix2 (j 0) (binCol (j 1) k) := by
  funext a
  apply Fin.ext
  have h0 : (j 0).val < 1048576 := (j 0).isLt
  have h1 : (j 1).val < 4 := (j 1).isLt
  have h2 : k.val < 16 := k.isLt
  match a with
  | ⟨0, _⟩ =>
    show (((j 0).val * 4 + (j 1).val) * 16 + k.val) / 64 = (j 0).val
    omega
  | ⟨1, _⟩ =>
    show (((j 0).val * 4 + (j 1).val) * 16 + k.val) % 64 = 16 * (j 1).val + k.val
    omega

/-- The weight's index under (n, k) is (n, 0). -/
theorem weight_idx (j : S1048576x4.Idx) : idx_main_v31 j = ix2 (j 0) (0 : Fin 1) :=
  funext fun a => Fin.ext (by match a with | ⟨0, _⟩ => rfl | ⟨1, _⟩ => rfl)

/-- Reducing the last axis of [1048576, 4, 16] leaves [1048576, 4]. -/
theorem reduces_bins : S1048576x4x16.Reduces [2] S1048576x4 := by decide

/-- The result index j with bin k put back on the reduced axis is (j, k). -/
theorem lift_eq_cellIdx (j : S1048576x4.Idx) (k : Fin 16) : reduces_bins.lift j k = cellIdx j k :=
  funext fun a => Fin.ext (by match a with | ⟨0, _⟩ => rfl | ⟨1, _⟩ => rfl | ⟨2, _⟩ => rfl)

/-! ## The stages that depend on the target only -/

section Target

variable (x1 : (⟨S1048576x4, .f32⟩ : BufTy).Contents (Elt Ideal))

/-- The clipped target. -/
theorem clip_at (j : S1048576x4.Idx) : val_main_v1 (F := Ideal) x1 j = rClip (x1 j) := by
  rw [val_main_v1_apply, val_main_call0_v4_apply, val_main_call0_v3_apply, val_main_c_apply, val_main_call0_v2_apply,
    val_main_call0_v1_apply, val_main_call0_v0_apply, val_main_cst_apply]
  rfl

/-- Its floor. -/
theorem floor_at (j : S1048576x4.Idx) : val_main_v2 (F := Ideal) x1 j = rFloor (x1 j) := by
  rw [val_main_v2_apply, clip_at]
  rfl

/-- The left bin. -/
theorem left_at (j : S1048576x4.Idx) : val_main_v3 (F := Ideal) x1 j = rLeft (x1 j) := by
  rw [val_main_v3_apply, floor_at]
  rfl

/-- The right bin: the left bin plus one, clipped to [0, 15]. -/
theorem right_at (j : S1048576x4.Idx) : val_main_v6 (F := Ideal) x1 j = rRight (x1 j) := by
  rw [val_main_v6_apply, val_main_call1_v4_apply, val_main_call1_v3_apply, val_main_c_2_apply, val_main_call1_v2_apply,
    val_main_call1_v1_apply, val_main_call1_v0_apply, val_main_c_1_apply, val_main_v5_apply, val_main_v4_apply,
    val_main_c_0_apply, left_at]
  rfl

/-- The mass on the right bin. -/
theorem wr_at (j : S1048576x4.Idx) : val_main_v8 (F := Ideal) x1 j = rWr (x1 j) := by
  rw [val_main_v8_apply, val_main_v7_apply, clip_at, left_at]
  rfl

/-- The mass on the left bin. -/
theorem wl_at (j : S1048576x4.Idx) : val_main_v10 (F := Ideal) x1 j = rWl (x1 j) := by
  rw [val_main_v10_apply, val_main_v9_apply, val_main_cst_3_apply, wr_at]
  rfl

/-- The one-hot vector of the left bin, at bin k. -/
theorem onehot_left_at (j : S1048576x4.Idx) (k : Fin 16) :
    val_main_v11 (F := Ideal) x1 (cellIdx j k)
      = FloatOps.uitofp (F := Ideal) .f32 (IntOp.cmpi .eq (rLeft (x1 j)) (BitVec.ofNat 32 k.val)) := by
  rw [val_main_v11_apply, val_main_call2_v4_apply, val_main_call2_v2_apply, val_main_call2_v0_apply,
    val_main_call2_v3_apply, val_main_call2_v1_apply,
    show idx_main_call2_v0 (idx_main_call2_v2 (cellIdx j k)) = j from row_of_cellIdx j k, left_at]

/-- The one-hot vector of the right bin, at bin k. -/
theorem onehot_right_at (j : S1048576x4.Idx) (k : Fin 16) :
    val_main_v12 (F := Ideal) x1 (cellIdx j k)
      = FloatOps.uitofp (F := Ideal) .f32 (IntOp.cmpi .eq (rRight (x1 j)) (BitVec.ofNat 32 k.val)) := by
  rw [val_main_v12_apply, val_main_call3_v4_apply, val_main_call3_v2_apply, val_main_call3_v0_apply,
    val_main_call3_v3_apply, val_main_call3_v1_apply,
    show idx_main_call3_v0 (idx_main_call3_v2 (cellIdx j k)) = j from row_of_cellIdx j k, right_at]

/-- The two-hot label at bin k. -/
theorem td_at (j : S1048576x4.Idx) (k : Fin 16) : val_main_v19 (F := Ideal) x1 (cellIdx j k) = rTd (x1 j) k := by
  rw [val_main_v19_apply, val_main_v15_apply, val_main_v18_apply, onehot_left_at, onehot_right_at,
    val_main_v14_apply, val_main_v13_apply, val_main_v17_apply, val_main_v16_apply,
    show idx_main_v13 (idx_main_v14 (cellIdx j k)) = j from row_of_cellIdx j k,
    show idx_main_v16 (idx_main_v17 (cellIdx j k)) = j from row_of_cellIdx j k, wl_at, wr_at]
  rfl

end Target

/-! ## The stages that depend on the scores only -/

section Scores

variable (x0 : (⟨S1048576x64, .f32⟩ : BufTy).Contents (Elt Ideal))

/-- The reshaped scores at (j, k): score k of side j 1 of row j 0. -/
theorem score_at (j : S1048576x4.Idx) (k : Fin 16) :
    val_main_v0 (F := Ideal) x0 (cellIdx j k) = scores x0 (j 0) (j 1) k := by
  rw [val_main_v0_apply, reshape_cellIdx]
  rfl

/-- The row maximum: the fold of the maximum from -∞ over the sixteen scores, joined with -∞. -/
theorem max_at (j : S1048576x4.Idx) : val_main_call4_v2 (F := Ideal) x0 j = rMax (scores x0 (j 0) (j 1)) := by
  rw [val_main_call4_v2_apply, val_main_call4_v1_apply, val_main_call4_cst_0_apply]
  unfold val_main_call4_v0
  rw [Host.reduce_eq_fold_single FloatOps.maximumf _ _ reducesTo_S1048576x4x16_S1048576x4_d2 reduces_bins h_S_]
  have hf : (val_main_v0 (F := Ideal) x0 ∘ reduces_bins.lift j) = scores x0 (j 0) (j 1) :=
    funext fun k => by
      show val_main_v0 (F := Ideal) x0 (reduces_bins.lift j k) = scores x0 (j 0) (j 1) k
      exact (congrArg (val_main_v0 (F := Ideal) x0) (lift_eq_cellIdx j k)).trans (score_at x0 j k)
  rw [hf, val_main_call4_cst_apply]
  rfl

/-- The scores shifted by their maximum. -/
theorem shift_at (j : S1048576x4.Idx) (k : Fin 16) :
    val_main_call4_v5 (F := Ideal) x0 (cellIdx j k) = rShift (scores x0 (j 0) (j 1)) k := by
  rw [val_main_call4_v5_apply, score_at, val_main_call4_v4_apply, val_main_call4_v3_apply,
    show idx_main_call4_v3 (idx_main_call4_v4 (cellIdx j k)) = j from row_of_cellIdx j k, max_at]
  rfl

/-- Their exponentials. -/
theorem exp_at (j : S1048576x4.Idx) (k : Fin 16) :
    val_main_call4_v6 (F := Ideal) x0 (cellIdx j k)
      = FloatOps.hostUnary (F := Ideal) .exp (rShift (scores x0 (j 0) (j 1)) k) := by
  rw [val_main_call4_v6_apply, shift_at]

/-- The logarithm of the sum of the exponentials. -/
theorem lse_at (j : S1048576x4.Idx) (k : Fin 16) :
    val_main_call4_v10 (F := Ideal) x0 (cellIdx j k) = rLse (scores x0 (j 0) (j 1)) := by
  rw [val_main_call4_v10_apply, val_main_call4_v9_apply, val_main_call4_v8_apply,
    show idx_main_call4_v8 (idx_main_call4_v10 (cellIdx j k)) = j from row_of_cellIdx j k,
    val_main_call4_v7_apply, val_main_call4_cst_1_apply]
  unfold rLse
  refine congrArg (fun s => FloatOps.hostUnary (F := Ideal) .log (w0 + s)) ?_
  exact Finset.sum_congr rfl fun k' _ => exp_at x0 j k'

/-- The log-probability of bin k. -/
theorem logp_at (j : S1048576x4.Idx) (k : Fin 16) :
    val_main_v20 (F := Ideal) x0 (cellIdx j k) = rLogp (scores x0 (j 0) (j 1)) k := by
  rw [val_main_v20_apply, shift_at, lse_at]
  rfl

end Scores

/-! ## One bin's term, one side's loss, one cell -/

section Cell

variable (x0 : (⟨S1048576x64, .f32⟩ : BufTy).Contents (Elt Ideal)) (x1 : (⟨S1048576x4, .f32⟩ : BufTy).Contents (Elt Ideal))
  (x2 : (⟨S1048576x1, .f32⟩ : BufTy).Contents (Elt Ideal))

/-- The term of bin k: the label times (log label - log-probability) where the label is positive, else 0. -/
theorem term_at (j : S1048576x4.Idx) (k : Fin 16) :
    val_main_v29 (F := Ideal) x0 x1 (cellIdx j k) = rTerm (scores x0 (j 0) (j 1)) (x1 j) k := by
  rw [val_main_v29_apply, val_main_v26_apply, val_main_v25_apply, val_main_cst_6_apply, val_main_v28_apply,
    val_main_v27_apply, val_main_v24_apply, val_main_v23_apply, val_main_v22_apply, val_main_v21_apply,
    val_main_cst_4_apply, val_main_call5_v1_apply, val_main_call5_v0_apply, val_main_cst_5_apply,
    val_main_call6_v1_apply, val_main_call6_v0_apply, val_main_cst_7_apply, td_at, logp_at]
  rfl

/-- The sum over the sixteen bins is the reference's spelling of one side's loss. -/
theorem side_at (j : S1048576x4.Idx) :
    val_main_v30 (F := Ideal) x0 x1 j = referenceSide (scores x0 (j 0) (j 1)) (x1 j) := by
  rw [val_main_v30_apply, val_main_cst_8_apply]
  unfold referenceSide
  refine congrArg (fun s => w0 + s) ?_
  exact Finset.sum_congr rfl fun k _ => term_at x0 x1 j k

/-- One cell: the side's loss times the row's weight. -/
theorem cell_at (j : S1048576x4.Idx) :
    val_main_v32 (F := Ideal) x0 x1 x2 j = cell referenceSide x0 x1 x2 (j 0) (j 1) := by
  rw [val_main_v32_apply, side_at, val_main_v31_apply, weight_idx]
  unfold cell
  exact congrArg (fun t => FloatOps.mulf (F := Ideal) (referenceSide (scores x0 (j 0) (j 1)) t) (x2 (ix2 (j 0) (0 : Fin 1))))
    (congrArg x1 (eq_ix2 j))

/-- The reference's value is the mean of all cells. -/
theorem ref_value (x0 : (⟨S1048576x64, .f32⟩ : BufTy).Contents (Elt Ideal)) (x1 : (⟨S1048576x4, .f32⟩ : BufTy).Contents (Elt Ideal))
    (x2 : (⟨S1048576x1, .f32⟩ : BufTy).Contents (Elt Ideal)) :
    val_main_v34 (F := Ideal) x0 x1 x2 = fun _ => refLoss x0 x1 x2 := by
  funext i
  rw [val_main_v34_apply, val_main_v33_apply, val_main_cst_9_apply, val_main_cst_10_apply]
  unfold refLoss
  refine congrArg (fun s => FloatOps.hostDivf (F := Ideal) (w0 + s) wCount) ?_
  exact Finset.sum_congr rfl fun j _ => cell_at x0 x1 x2 j

end Cell

end Cert.RefSide

end
-- ==== Proof.LibReal.lean ====
/-
  Arrays of extended reals all of whose entries are real numbers: the predicate under which the ring laws
  (distributivity, moving a factor across a finite sum) hold entry by entry, and its closure under the
  arithmetic that keeps reals real.
-/
import Mathlib.Data.EReal.Basic
import Mathlib.Data.EReal.Operations
import Mathlib.Algebra.BigOperators.Group.Finset.Basic

open scoped BigOperators

namespace LibReal

/-- Every entry of `x` is (the coercion of) a real number. -/
def AllReal {ι : Type} (x : ι → EReal) : Prop := ∀ i, ∃ r : ℝ, x i = (r : EReal)

theorem AllReal.add {ι : Type} {x y : ι → EReal} (hx : AllReal x) (hy : AllReal y) : AllReal (fun i => x i + y i) := fun i => by
  obtain ⟨a, ha⟩ := hx i; obtain ⟨b, hb⟩ := hy i
  exact ⟨a + b, by show x i + y i = _; rw [ha, hb, EReal.coe_add]⟩

theorem AllReal.mul {ι : Type} {x y : ι → EReal} (hx : AllReal x) (hy : AllReal y) : AllReal (fun i => x i * y i) := fun i => by
  obtain ⟨a, ha⟩ := hx i; obtain ⟨b, hb⟩ := hy i
  exact ⟨a * b, by show x i * y i = _; rw [ha, hb, EReal.coe_mul]⟩

/-- A finite sum of coerced reals is the coerced sum. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real entries is real. -/
theorem exists_real_sum {κ : Type} (s : Finset κ) (f : κ → EReal) (h : ∀ k ∈ s, ∃ r : ℝ, f k = (r : EReal)) :
    ∃ r : ℝ, ∑ k ∈ s, f k = (r : EReal) := by
  classical
  choose! g hg using h
  exact ⟨∑ k ∈ s, g k, by rw [coe_sum]; exact Finset.sum_congr rfl hg⟩

end LibReal
-- ==== Proof.RowLossEq.lean ====
/-
  The two spellings of one box side's loss agree on real inputs.

  For real scores `p 0 … p 15` and a real target `t` every intermediate quantity of both spellings is a real
  number: the clipped target `c = min 15 (max 0 t)`, its floor `m = ⌊c⌋ ∈ {0, …, 15}`, the masses
  `wr = c - m ∈ [0, 1)` and `wl = 1 - wr`, the two-hot label `td j = [j = m]·wl + [j = min 15 (m+1)]·wr`,
  the shifted scores `s j = p j - M` and `L = log Σ exp (s j)`. Both losses are then coercions of reals, and
  the identity

    `xlogx wl + xlogx wr - Σ_j td j · s j + L = Σ_j [td j > 0] · td j · (log (td j) - (s j - L))`

  follows from `Σ_j td j = 1` and `Σ_j xlogx (td j) = xlogx wl + xlogx wr` (the two bins are distinct unless
  `wr = 0`).
-/
import proofs.«110796_j13116830122188_2_alg».proof.Proof.RowLoss
import proofs.«110796_j13116830122188_2_alg».proof.Proof.LibReal
import Mathlib.Tactic

noncomputable section

namespace Cert.RowLoss

open Idealize.ShloMosaic

/-! ## The four constants -/

theorem w0_eq : w0 = 0 := Ideal.ofBits_zero_f32

theorem w1_eq : w1 = ((1 : ℝ) : EReal) := by
  show Ideal.ofBits .f32 0x3F800000#32 = _
  simp [Ideal.ofBits, Ideal.ieee, -EReal.coe_mul]; norm_num

theorem w15_eq : w15 = ((15 : ℝ) : EReal) := by
  show Ideal.ofBits .f32 0x41700000#32 = _
  simp [Ideal.ofBits, Ideal.ieee, -EReal.coe_mul]; norm_num

theorem wNegInf_eq : wNegInf = ⊥ := by
  show Ideal.ofBits .f32 0xFF800000#32 = _
  simp [Ideal.ofBits, Ideal.ieee]

/-! ## The clipped target, its floor and the two masses, as reals -/

/-- The target clipped to `[0, 15]`. -/
def clipR (t : ℝ) : ℝ := min 15 (max 0 t)

theorem clipR_nonneg (t : ℝ) : 0 ≤ clipR t := le_min (by norm_num) (le_max_left _ _)
theorem clipR_le (t : ℝ) : clipR t ≤ 15 := min_le_left _ _

/-- The left bin, `⌊c⌋`, a natural number at most 15. -/
def leftN (t : ℝ) : ℕ := ⌊clipR t⌋₊

theorem leftN_le (t : ℝ) : leftN t ≤ 15 := by
  have h : leftN t ≤ ⌊(15 : ℝ)⌋₊ := Nat.floor_le_floor (clipR_le t)
  simpa using h

theorem floor_clipR (t : ℝ) : ⌊clipR t⌋ = (leftN t : ℤ) :=
  (Int.natCast_floor_eq_floor (clipR_nonneg t)).symm

/-- The mass on the right bin. -/
def wrR (t : ℝ) : ℝ := clipR t - leftN t
/-- The mass on the left bin. -/
def wlR (t : ℝ) : ℝ := 1 - wrR t

theorem wrR_nonneg (t : ℝ) : 0 ≤ wrR t := sub_nonneg.mpr (Nat.floor_le (clipR_nonneg t))
theorem wrR_lt_one (t : ℝ) : wrR t < 1 := by
  have := Nat.lt_floor_add_one (clipR t)
  unfold wrR leftN; linarith
theorem wlR_pos (t : ℝ) : 0 < wlR t := by have := wrR_lt_one t; unfold wlR; linarith
theorem wlR_add_wrR (t : ℝ) : wlR t + wrR t = 1 := by unfold wlR; ring

/-- At the top bin nothing is left for the right mass. -/
theorem wrR_eq_zero_of_leftN (t : ℝ) (h : leftN t = 15) : wrR t = 0 := by
  have h1 : (15 : ℝ) ≤ clipR t := by
    have := Nat.floor_le (clipR_nonneg t)
    unfold leftN at h; rw [h] at this; exact_mod_cast this
  have h2 := clipR_le t
  unfold wrR; rw [h]; push_cast; linarith

/-! ## The kernel's and the reference's clip, floor, left bin and masses -/

theorem kClip_coe (t : ℝ) : kClip (t : EReal) = ((clipR t : ℝ) : EReal) := by
  show min w15 (max w0 (t : EReal)) = _
  rw [w15_eq, w0_eq, ← EReal.coe_zero, ← EReal.coe_strictMono.monotone.map_max,
    ← EReal.coe_strictMono.monotone.map_min]; rfl

theorem rClip_coe (t : ℝ) : rClip (t : EReal) = ((clipR t : ℝ) : EReal) := by
  show min (((15#32 : BitVec 32).toInt : ℝ) : EReal) (max w0 (t : EReal)) = _
  have h15 : (((15#32 : BitVec 32).toInt : ℝ) : EReal) = ((15 : ℝ) : EReal) := by
    have : (15#32 : BitVec 32).toInt = 15 := by decide
    rw [this]; norm_num
  rw [h15, w0_eq, ← EReal.coe_zero, ← EReal.coe_strictMono.monotone.map_max,
    ← EReal.coe_strictMono.monotone.map_min]; rfl

theorem kFloor_coe (t : ℝ) : kFloor (t : EReal) = (((leftN t : ℕ) : ℝ) : EReal) := by
  show Ideal.liftRound Int.floor (kClip (t : EReal)) = _
  rw [kClip_coe, Ideal.liftRound_coe, floor_clipR]; push_cast; rfl

theorem rFloor_coe (t : ℝ) : rFloor (t : EReal) = (((leftN t : ℕ) : ℝ) : EReal) := by
  show Ideal.liftRound Int.floor (rClip (t : EReal)) = _
  rw [rClip_coe, Ideal.liftRound_coe, floor_clipR]; push_cast; rfl

/-! ## Small 32-bit words -/

theorem fptosi_natCast (m : ℕ) (hm : m ≤ 15) :
    Ideal.fptosi 32 (((m : ℕ) : ℝ) : EReal) = BitVec.ofNat 32 m := by
  unfold Ideal.fptosi
  rw [Ideal.toIntClamped_coe, if_pos (Nat.cast_nonneg m), Int.floor_natCast]
  rw [min_eq_right (by norm_num; omega), max_eq_right (by norm_num), BitVec.ofInt_natCast]

theorem toInt_ofNat_small (m : ℕ) (hm : m ≤ 15) : (BitVec.ofNat 32 m).toInt = (m : ℤ) := by
  interval_cases m <;> decide

theorem right_ofNat (m : ℕ) (hm : m ≤ 15) :
    IntOp.minsi 15#32 (IntOp.maxsi 0#32 (IntOp.addi (BitVec.ofNat 32 m) 1#32))
      = BitVec.ofNat 32 (min 15 (m + 1)) := by
  interval_cases m <;> decide

theorem cmpi_eq_ofNat (a b : ℕ) (ha : a ≤ 15) (hb : b ≤ 15) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; simp
  · rw [if_neg h]
    have hne : (BitVec.ofNat 32 a == BitVec.ofNat 32 b) = false := by
      rw [beq_eq_false_iff_ne]
      intro hh
      have h2 := congrArg BitVec.toNat hh
      simp only [BitVec.toNat_ofNat] at h2
      omega
    rw [hne]; rfl

theorem select_ite {α : Type} (c : Prop) [Decidable c] (a b : α) :
    Scalar.select (if c then 1#1 else 0#1) a b = if c then a else b := by
  by_cases h : c
  · rw [if_pos h, if_pos h]; rfl
  · rw [if_neg h, if_neg h]; exact if_neg (by decide)

theorem uitofp_ite (c : Prop) [Decidable c] :
    FloatOps.uitofp (F := Ideal) .f32 (if c then 1#1 else 0#1) = if c then (1 : EReal) else 0 := by
  by_cases h : c
  · rw [if_pos h, if_pos h]
    show ((((1#1 : BitVec 1).toNat : ℕ) : ℝ) : EReal) = 1
    norm_num
  · rw [if_neg h, if_neg h]
    show ((((0#1 : BitVec 1).toNat : ℕ) : ℝ) : EReal) = 0
    norm_num

theorem coe_ite (c : Prop) [Decidable c] (a b : ℝ) :
    ((if c then a else b : ℝ) : EReal) = if c then (a : EReal) else (b : EReal) := apply_ite _ _ _ _

/-! ## The bins and the masses of the two spellings -/

theorem kLeft_coe (t : ℝ) : kLeft (t : EReal) = BitVec.ofNat 32 (leftN t) := by
  show Ideal.fptosi 32 (kFloor (t : EReal)) = _
  rw [kFloor_coe, fptosi_natCast _ (leftN_le t)]

theorem rLeft_coe (t : ℝ) : rLeft (t : EReal) = BitVec.ofNat 32 (leftN t) := by
  show Ideal.fptosi 32 (rFloor (t : EReal)) = _
  rw [rFloor_coe, fptosi_natCast _ (leftN_le t)]

/-- The right bin, `min 15 (m + 1)`. -/
def rightN (t : ℝ) : ℕ := min 15 (leftN t + 1)

theorem rightN_le (t : ℝ) : rightN t ≤ 15 := min_le_left _ _

theorem kRight_coe (t : ℝ) : kRight (t : EReal) = BitVec.ofNat 32 (rightN t) := by
  show IntOp.minsi 15#32 (IntOp.maxsi 0#32 (IntOp.addi (kLeft (t : EReal)) 1#32)) = _
  rw [kLeft_coe, right_ofNat _ (leftN_le t)]; rfl

theorem rRight_coe (t : ℝ) : rRight (t : EReal) = BitVec.ofNat 32 (rightN t) := by
  show IntOp.minsi 15#32 (IntOp.maxsi 0#32 (IntOp.addi (rLeft (t : EReal)) 1#32)) = _
  rw [rLeft_coe, right_ofNat _ (leftN_le t)]; rfl

theorem kWr_coe (t : ℝ) : kWr (t : EReal) = ((wrR t : ℝ) : EReal) := by
  show kClip (t : EReal) - kFloor (t : EReal) = _
  rw [kClip_coe, kFloor_coe, ← EReal.coe_sub]; rfl

theorem rWr_coe (t : ℝ) : rWr (t : EReal) = ((wrR t : ℝ) : EReal) := by
  show rClip (t : EReal) - ((((rLeft (t : EReal)).toInt : ℤ) : ℝ) : EReal) = _
  rw [rClip_coe, rLeft_coe, toInt_ofNat_small _ (leftN_le t), ← EReal.coe_sub]; push_cast; rfl

theorem kWl_coe (t : ℝ) : kWl (t : EReal) = ((wlR t : ℝ) : EReal) := by
  show w1 - kWr (t : EReal) = _
  rw [w1_eq, kWr_coe, ← EReal.coe_sub]; rfl

theorem rWl_coe (t : ℝ) : rWl (t : EReal) = ((wlR t : ℝ) : EReal) := by
  show w1 - rWr (t : EReal) = _
  rw [w1_eq, rWr_coe, ← EReal.coe_sub]; rfl

/-! ## The two-hot label -/

/-- The two-hot label at bin `j`: `wl` on the left bin plus `wr` on the right bin. -/
def tdR (t : ℝ) (j : Fin 16) : ℝ :=
  (if j.val = leftN t then wlR t else 0) + (if j.val = rightN t then wrR t else 0)

theorem kTd_coe (t : ℝ) (j : Fin 16) : kTd (t : EReal) j = ((tdR t j : ℝ) : EReal) := by
  show Scalar.select (IntOp.cmpi .eq (BitVec.ofNat 32 j.val) (kLeft (t : EReal))) (kWl (t : EReal)) w0
      + Scalar.select (IntOp.cmpi .eq (BitVec.ofNat 32 j.val) (kRight (t : EReal))) (kWr (t : EReal)) w0 = _
  have hj : j.val ≤ 15 := by omega
  rw [kLeft_coe, kRight_coe, cmpi_eq_ofNat _ _ hj (leftN_le t), cmpi_eq_ofNat _ _ hj (rightN_le t),
    select_ite, select_ite, kWl_coe, kWr_coe, w0_eq]
  unfold tdR
  rw [EReal.coe_add, coe_ite, coe_ite, EReal.coe_zero]

theorem rTd_coe (t : ℝ) (j : Fin 16) : rTd (t : EReal) j = ((tdR t j : ℝ) : EReal) := by
  show FloatOps.uitofp (F := Ideal) .f32 (IntOp.cmpi .eq (rLeft (t : EReal)) (BitVec.ofNat 32 j.val)) * rWl (t : EReal)
      + FloatOps.uitofp (F := Ideal) .f32 (IntOp.cmpi .eq (rRight (t : EReal)) (BitVec.ofNat 32 j.val)) * rWr (t : EReal) = _
  have hj : j.val ≤ 15 := by omega
  rw [rLeft_coe, rRight_coe, cmpi_eq_ofNat _ _ (leftN_le t) hj, cmpi_eq_ofNat _ _ (rightN_le t) hj,
    uitofp_ite, uitofp_ite, rWl_coe, rWr_coe]
  unfold tdR
  rw [EReal.coe_add, coe_ite, coe_ite, EReal.coe_zero, ite_mul, ite_mul, one_mul, zero_mul, one_mul, zero_mul,
    if_congr (eq_comm (a := leftN t) (b := j.val)) rfl rfl,
    if_congr (eq_comm (a := rightN t) (b := j.val)) rfl rfl]

theorem tdR_nonneg (t : ℝ) (j : Fin 16) : 0 ≤ tdR t j := by
  unfold tdR
  have h1 := (wlR_pos t).le
  have h2 := wrR_nonneg t
  split_ifs <;> linarith

/-! ## The maximum and the shifted scores -/

theorem kMax_eq (p : Fin 16 → E) : kMax p = (Finset.univ : Finset (Fin 16)).fold max ⊥ p := by
  unfold kMax; rw [wNegInf_eq]

theorem rMax_eq_kMax (p : Fin 16 → E) : rMax p = kMax p := by
  show max wNegInf ((Finset.univ : Finset (Fin 16)).fold max wNegInf p) = kMax p
  rw [kMax_eq, wNegInf_eq]; exact max_eq_right bot_le

/-- A fold of `max` from `⊥` over real entries is `⊥` or real. -/
theorem fold_max_bot_or_real (p : Fin 16 → EReal) (hp : ∀ j, ∃ r : ℝ, p j = (r : EReal)) (s : Finset (Fin 16)) :
    s.fold max ⊥ p = ⊥ ∨ ∃ r : ℝ, s.fold max ⊥ p = (r : EReal) := by
  classical
  induction s using Finset.induction_on with
  | empty => left; rfl
  | insert a s ha ih =>
    right
    rw [Finset.fold_insert ha]
    obtain ⟨ra, hra⟩ := hp a
    rcases ih with h | ⟨r, hr⟩
    · exact ⟨ra, by rw [h, hra]; exact max_eq_left bot_le⟩
    · exact ⟨max ra r, by rw [hr, hra, EReal.coe_strictMono.monotone.map_max]⟩

/-- The largest of sixteen real scores is real. -/
theorem kMax_real (p : Fin 16 → E) (hp : ∀ j, ∃ r : ℝ, p j = (r : EReal)) : ∃ M : ℝ, kMax p = (M : EReal) := by
  rw [kMax_eq]
  rcases fold_max_bot_or_real p hp Finset.univ with h | h
  · exfalso
    obtain ⟨r0, hr0⟩ := hp 0
    have hle : p 0 ≤ (Finset.univ : Finset (Fin 16)).fold max ⊥ p :=
      (Finset.le_fold_max (p 0)).mpr (Or.inr ⟨0, Finset.mem_univ _, le_refl _⟩)
    rw [h, hr0] at hle
    exact EReal.coe_ne_bot r0 (le_bot_iff.mp hle)
  · exact h

theorem kShift_coe (p : Fin 16 → E) (pr : Fin 16 → ℝ) (M : ℝ) (hp : ∀ j, p j = (pr j : EReal))
    (hM : kMax p = (M : EReal)) (j : Fin 16) : kShift p j = ((pr j - M : ℝ) : EReal) := by
  show p j - kMax p = _
  rw [hp, hM, ← EReal.coe_sub]

theorem rShift_eq_kShift (p : Fin 16 → E) (j : Fin 16) : rShift p j = kShift p j := by
  show p j - rMax p = p j - kMax p
  rw [rMax_eq_kMax]

/-! ## `log Σ exp`, the dot product and `x log x` -/

theorem log_sum_exp_coe (s : Fin 16 → ℝ) :
    Ideal.log ((∑ j : Fin 16, Real.exp (s j) : ℝ) : EReal) = ((Real.log (∑ j : Fin 16, Real.exp (s j)) : ℝ) : EReal) := by
  have hpos : 0 < ∑ j : Fin 16, Real.exp (s j) := Finset.sum_pos (fun j _ => Real.exp_pos _) Finset.univ_nonempty
  rw [Ideal.log_coe, if_neg (not_le.mpr hpos)]

theorem kLse_coe (p : Fin 16 → E) (s : Fin 16 → ℝ) (hs : ∀ j, kShift p j = (s j : EReal)) :
    kLse p = ((Real.log (∑ j : Fin 16, Real.exp (s j)) : ℝ) : EReal) := by
  show Ideal.log (∑ j : Fin 16, Ideal.exp (kShift p j)) = _
  simp only [hs, Ideal.exp_coe]
  rw [← LibReal.coe_sum, log_sum_exp_coe]

theorem rLse_coe (p : Fin 16 → E) (s : Fin 16 → ℝ) (hs : ∀ j, kShift p j = (s j : EReal)) :
    rLse p = ((Real.log (∑ j : Fin 16, Real.exp (s j)) : ℝ) : EReal) := by
  show Ideal.log (w0 + ∑ j : Fin 16, Ideal.exp (rShift p j)) = _
  simp only [rShift_eq_kShift, hs, Ideal.exp_coe]
  rw [w0_eq, zero_add, ← LibReal.coe_sum, log_sum_exp_coe]

theorem kDot_coe (p : Fin 16 → E) (t : ℝ) (s : Fin 16 → ℝ) (hs : ∀ j, kShift p j = (s j : EReal)) :
    kDot p (t : EReal) = ((∑ j : Fin 16, tdR t j * s j : ℝ) : EReal) := by
  show ∑ j : Fin 16, kTd (t : EReal) j * kShift p j = _
  simp only [hs, kTd_coe, ← EReal.coe_mul]
  rw [← LibReal.coe_sum]

/-- `x · log x` where `x > 0`, else `0`. -/
def xlogxR (x : ℝ) : ℝ := if 0 < x then x * Real.log x else 0

theorem xlogxR_zero : xlogxR 0 = 0 := if_neg (lt_irrefl 0)

theorem cmp_ogt_zero (x : ℝ) :
    FloatOps.cmpf (F := Ideal) .ogt (x : EReal) w0 = if 0 < x then 1#1 else 0#1 := by
  show BitVec.ofBool (decide (w0 < (x : EReal))) = _
  rw [w0_eq]
  by_cases h : 0 < x
  · rw [if_pos h, decide_eq_true (by exact_mod_cast h)]; rfl
  · rw [if_neg h, decide_eq_false (by exact_mod_cast h)]; rfl

theorem kXlogx_coe (x : ℝ) : kXlogx (x : EReal) = ((xlogxR x : ℝ) : EReal) := by
  show Scalar.select (FloatOps.cmpf (F := Ideal) .ogt (x : EReal) w0) ((x : EReal) * Ideal.log (x : EReal)) w0 = _
  rw [cmp_ogt_zero, select_ite, w0_eq]
  unfold xlogxR
  by_cases h : 0 < x
  · rw [if_pos h, if_pos h, Ideal.log_coe, if_neg (not_le.mpr h), EReal.coe_mul]
  · rw [if_neg h, if_neg h, EReal.coe_zero]

/-! ## The two losses as coerced reals -/

theorem kernelSide_coe (p : Fin 16 → E) (t : ℝ) (s : Fin 16 → ℝ) (hs : ∀ j, kShift p j = (s j : EReal)) :
    kernelSide p (t : EReal)
      = ((xlogxR (wlR t) + xlogxR (wrR t) - ∑ j : Fin 16, tdR t j * s j
          + Real.log (∑ j : Fin 16, Real.exp (s j)) : ℝ) : EReal) := by
  show kXlogx (kWl (t : EReal)) + kXlogx (kWr (t : EReal)) - kDot p (t : EReal) + kLse p = _
  rw [kWl_coe, kWr_coe, kXlogx_coe, kXlogx_coe, kDot_coe p t s hs, kLse_coe p s hs,
    ← EReal.coe_add, ← EReal.coe_sub, ← EReal.coe_add]

theorem rTerm_coe (p : Fin 16 → E) (t : ℝ) (s : Fin 16 → ℝ) (hs : ∀ j, kShift p j = (s j : EReal)) (j : Fin 16) :
    rTerm p (t : EReal) j
      = ((if 0 < tdR t j then
            tdR t j * (Real.log (tdR t j) - (s j - Real.log (∑ j : Fin 16, Real.exp (s j)))) else 0 : ℝ) : EReal) := by
  show Scalar.select (FloatOps.cmpf (F := Ideal) .ogt (rTd (t : EReal) j) w0)
      (rTd (t : EReal) j * (Ideal.log (Scalar.select (FloatOps.cmpf (F := Ideal) .ogt (rTd (t : EReal) j) w0)
          (rTd (t : EReal) j) w1) - (rShift p j - rLse p))) w0 = _
  rw [rTd_coe, cmp_ogt_zero, select_ite, select_ite, rShift_eq_kShift, hs, rLse_coe p s hs, w0_eq]
  by_cases h : 0 < tdR t j
  · simp only [if_pos h]
    rw [Ideal.log_coe, if_neg (not_le.mpr h), ← EReal.coe_sub, ← EReal.coe_sub, ← EReal.coe_mul]
  · simp only [if_neg h]
    rw [EReal.coe_zero]

theorem referenceSide_coe (p : Fin 16 → E) (t : ℝ) (s : Fin 16 → ℝ) (hs : ∀ j, kShift p j = (s j : EReal)) :
    referenceSide p (t : EReal)
      = ((∑ j : Fin 16, (if 0 < tdR t j then
            tdR t j * (Real.log (tdR t j) - (s j - Real.log (∑ j : Fin 16, Real.exp (s j)))) else 0) : ℝ) : EReal) := by
  show w0 + ∑ j : Fin 16, rTerm p (t : EReal) j = _
  simp only [rTerm_coe p t s hs]
  rw [w0_eq, zero_add, ← LibReal.coe_sum]

/-! ## The identity on the reals -/

theorem sum_ite_val (m : ℕ) (hm : m ≤ 15) (a : ℝ) : ∑ j : Fin 16, (if j.val = m then a else 0) = a := by
  have hiff : ∀ j : Fin 16, (j.val = m) ↔ (j = (⟨m, by omega⟩ : Fin 16)) := fun j => by rw [Fin.ext_iff]
  simp only [hiff]
  rw [Finset.sum_ite_eq' Finset.univ (⟨m, by omega⟩ : Fin 16) (fun _ => a), if_pos (Finset.mem_univ _)]

/-- The two bins are distinct unless the right mass is zero. -/
theorem bins_distinct_or_wrR_zero (t : ℝ) : leftN t ≠ rightN t ∨ wrR t = 0 := by
  by_cases h : leftN t = 15
  · right; exact wrR_eq_zero_of_leftN t h
  · left
    have h15 := leftN_le t
    unfold rightN
    omega

theorem tdR_sum (t : ℝ) : ∑ j : Fin 16, tdR t j = 1 := by
  unfold tdR
  rw [Finset.sum_add_distrib, sum_ite_val _ (leftN_le t), sum_ite_val _ (rightN_le t), wlR_add_wrR]

theorem xlogxR_tdR (t : ℝ) (j : Fin 16) :
    xlogxR (tdR t j)
      = (if j.val = leftN t then xlogxR (wlR t) else 0) + (if j.val = rightN t then xlogxR (wrR t) else 0) := by
  unfold tdR
  by_cases h1 : j.val = leftN t <;> by_cases h2 : j.val = rightN t
  · have hw : wrR t = 0 := by
      rcases bins_distinct_or_wrR_zero t with h | h
      · exact absurd (h1.symm.trans h2) h
      · exact h
    rw [if_pos h1, if_pos h2, if_pos h1, if_pos h2, hw, add_zero, xlogxR_zero, add_zero]
  · rw [if_pos h1, if_neg h2, if_pos h1, if_neg h2, add_zero, add_zero]
  · rw [if_neg h1, if_pos h2, if_neg h1, if_pos h2, zero_add, zero_add]
  · rw [if_neg h1, if_neg h2, if_neg h1, if_neg h2, add_zero, xlogxR_zero]

theorem xlogxR_tdR_sum (t : ℝ) : ∑ j : Fin 16, xlogxR (tdR t j) = xlogxR (wlR t) + xlogxR (wrR t) := by
  simp only [xlogxR_tdR]
  rw [Finset.sum_add_distrib, sum_ite_val _ (leftN_le t), sum_ite_val _ (rightN_le t)]

/-- One bin's term of the sum, split into `x log x`, the score part and the `L` part. -/
theorem term_split (t : ℝ) (s : Fin 16 → ℝ) (L : ℝ) (j : Fin 16) :
    (if 0 < tdR t j then tdR t j * (Real.log (tdR t j) - (s j - L)) else 0)
      = xlogxR (tdR t j) - tdR t j * s j + tdR t j * L := by
  unfold xlogxR
  by_cases h : 0 < tdR t j
  · rw [if_pos h, if_pos h]; ring
  · have h0 : tdR t j = 0 := le_antisymm (not_lt.mp h) (tdR_nonneg t j)
    rw [if_neg h, if_neg h, h0]; ring

theorem real_identity (t : ℝ) (s : Fin 16 → ℝ) (L : ℝ) :
    xlogxR (wlR t) + xlogxR (wrR t) - ∑ j : Fin 16, tdR t j * s j + L
      = ∑ j : Fin 16, (if 0 < tdR t j then tdR t j * (Real.log (tdR t j) - (s j - L)) else 0) := by
  simp only [term_split]
  rw [Finset.sum_add_distrib, Finset.sum_sub_distrib, ← Finset.sum_mul, tdR_sum, xlogxR_tdR_sum]
  ring

/-! ## The two spellings agree -/

theorem side_eq (p : Fin 16 → E) (t : E) (hp : ∀ j, ∃ r : ℝ, p j = (r : EReal)) (ht : ∃ r : ℝ, t = (r : EReal)) :
    kernelSide p t = referenceSide p t := by
  obtain ⟨tr, rfl⟩ := ht
  obtain ⟨M, hM⟩ := kMax_real p hp
  choose pr hpr using hp
  have hs : ∀ j, kShift p j = ((pr j - M : ℝ) : EReal) := kShift_coe p pr M hpr hM
  rw [kernelSide_coe p tr _ hs, referenceSide_coe p tr _ hs, real_identity]

end Cert.RowLoss

end
-- ==== Proof.LibBlockSum.lean ====
/-
  Finite sums cut into blocks, over any additive commutative monoid. A sum over the first `n · q` naturals is the sum
  over `n` consecutive blocks of `q` terms each: index `k` is `i · q + j` for exactly one block `i < n` and one place
  `j < q` in it. A sum over the first `m + n` naturals is the sum of the first `m` terms plus the sum of the `n`
  after them. At 4096 = 4 · 1024 this gives the four quarter sums, added from the left, with or without a zero in front.
-/
import Mathlib.Algebra.BigOperators.Fin
import Mathlib.Data.Fintype.BigOperators
import Mathlib.Logic.Equiv.Fin.Basic

open scoped BigOperators

namespace LibBlockSum

variable {M : Type*} [AddCommMonoid M]

/-- Place `j` of block `i` is below `n · q`. -/
theorem block_lt {n q : Nat} (i : Fin n) (j : Fin q) : i.val * q + j.val < n * q :=
  calc i.val * q + j.val < i.val * q + q := Nat.add_lt_add_left j.isLt _
    _ = (i.val + 1) * q := (Nat.succ_mul _ _).symm
    _ ≤ n * q := Nat.mul_le_mul_right q i.isLt

/-- A sum of `n · q` terms is the sum over `n` blocks of the sums of each block's `q` terms. -/
theorem sum_blocks (n q : Nat) (f : Fin (n * q) → M) :
    ∑ k, f k = ∑ i : Fin n, ∑ j : Fin q, f ⟨i.val * q + j.val, block_lt i j⟩ := by
  rw [← Equiv.sum_comp finProdFinEquiv f, Fintype.sum_prod_type]
  refine Finset.sum_congr rfl fun i _ => Finset.sum_congr rfl fun j _ => congrArg f (Fin.ext ?_)
  show j.val + q * i.val = i.val * q + j.val
  rw [Nat.mul_comm, Nat.add_comm]

/-- A sum of `m + n` terms is the sum of the first `m` plus the sum of the last `n`. -/
theorem sum_split (m n : Nat) (f : Fin (m + n) → M) :
    ∑ k, f k = ∑ j : Fin m, f ⟨j.val, by omega⟩ + ∑ j : Fin n, f ⟨m + j.val, by omega⟩ :=
  Fin.sum_univ_add f

/-- A sum of 4096 terms is its four quarter sums, added from the left. -/
theorem sum_four_1024' (f : Fin 4096 → M) :
    ∑ k, f k = ((∑ j : Fin 1024, f ⟨j.val, by omega⟩ + ∑ j : Fin 1024, f ⟨1024 + j.val, by omega⟩)
      + ∑ j : Fin 1024, f ⟨2048 + j.val, by omega⟩) + ∑ j : Fin 1024, f ⟨3072 + j.val, by omega⟩ := by
  have h1 : ∑ k, f k = ∑ j : Fin 3072, f ⟨j.val, by omega⟩ + ∑ j : Fin 1024, f ⟨3072 + j.val, by omega⟩ :=
    sum_split 3072 1024 f
  have h2 : ∑ j : Fin 3072, f ⟨j.val, by omega⟩
      = ∑ j : Fin 2048, f ⟨j.val, by omega⟩ + ∑ j : Fin 1024, f ⟨2048 + j.val, by omega⟩ :=
    sum_split 2048 1024 fun k : Fin 3072 => f ⟨k.val, by omega⟩
  have h3 : ∑ j : Fin 2048, f ⟨j.val, by omega⟩
      = ∑ j : Fin 1024, f ⟨j.val, by omega⟩ + ∑ j : Fin 1024, f ⟨1024 + j.val, by omega⟩ :=
    sum_split 1024 1024 fun k : Fin 2048 => f ⟨k.val, by omega⟩
  rw [h1, h2, h3]

/-- The same with a zero in front, as an accumulation that starts from zero adds them. -/
theorem sum_four_1024 (f : Fin 4096 → M) :
    ∑ k, f k = (((0 + ∑ j : Fin 1024, f ⟨j.val, by omega⟩) + ∑ j : Fin 1024, f ⟨1024 + j.val, by omega⟩)
      + ∑ j : Fin 1024, f ⟨2048 + j.val, by omega⟩) + ∑ j : Fin 1024, f ⟨3072 + j.val, by omega⟩ := by
  rw [zero_add]
  exact sum_four_1024' f

end LibBlockSum
-- ==== Proof.LibFiniteEntries.lean ====
/-
  A finiteness test read back, for an array of any shape.

  A precondition "every entry of v is finite" is computed as  all(|v| < +∞):  the array of comparisons
  |v i| < +∞,  with +∞ a rank-0 f32 constant broadcast to v's shape, reduced by `and` over every axis into a
  single result, and the claim is that this result is 1.  Read backwards:
    • a reduction by `and` into one result that is 1 met a 1 at every index of its operand;
    • the bound's pattern (exponent bits all ones, fraction zero) denotes +∞;
    • an extended real whose absolute value  max x (−x)  is strictly below +∞ is a real number.
  Hence every entry of v is a real number.  Stated over an arbitrary shape and an arbitrary initial value of
  the reduction; imports the library only.
-/
import Idealize.ShloMosaic.PureOps
import Idealize.ShloMosaic.PureOps.Ideal
import Idealize.ShloMosaic.PureOps.Ideal.Laws
import Idealize.ShloMosaic.Lib.ReduceAll

noncomputable section

namespace Cert.LibFiniteEntries

open Idealize.ShloMosaic

/-- The f32 pattern with all exponent bits set and a zero fraction denotes +∞. -/
theorem top_f32 : Ideal.ofBits .f32 0x7F800000#32 = ⊤ := by
  simp [Ideal.ofBits, Ideal.ieee]

/-- An extended real whose absolute value  max x (−x)  is strictly below +∞ is a real number:
    at −∞ and at +∞ the absolute value is +∞, which is not below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The rank-0 shape has exactly one index. -/
instance subsingleton_idx0 : Subsingleton (⟨0, ![]⟩ : Shape).Idx := ⟨fun _ _ => funext fun d => d.elim0⟩

/-- ONE TEST, ANY SHAPE: if  all(|v| < +∞)  — the comparisons against the broadcast +∞ reduced by `and` into a
    result with a single index — came out 1, then every entry of  v  is a real number. -/
theorem real_of_all {s t u : Shape} {axes : List (Fin s.rank)} [Subsingleton t.Idx]
    (v : FVec Ideal s .f32)
    (hb : (⟨0, ![]⟩ : Shape).BroadcastsInDim s (![] : Fin 0 → Fin s.rank))
    (init : u.Idx → BitVec 1) (hr : s.ReducesTo axes t) (hu : 0 < u.numel) (j : t.Idx)
    (h : Host.reduce IntOp.andi
          (cmpf .olt (Host.absf v) (broadcastInDim s ![] hb (constant (F := Ideal) ⟨0, ![]⟩ .f32 0x7F800000#32)))
          init hr hu j = 1#1)
    (i : s.Idx) : ∃ r : ℝ, v i = (r : EReal) := by
  have e := Host.reduce_andi_all _ _ _ _ j h i
  -- the comparison at index i, every array operation read at that index
  have e' : Ideal.cmp .olt (max (v i) (-(v i))) (Ideal.ofBits .f32 0x7F800000#32) = 1#1 := e
  rw [top_f32] at e'
  exact real_of_abs_lt_top (v i) e'

end Cert.LibFiniteEntries

end
-- ==== Proof.SumBridge.lean ====
/-
  The two arrangements of the loss agree once the two spellings of a side's loss agree cell by cell, and the
  finiteness of the three arrays read off the precondition.

  Addition of extended reals is commutative and associative, so a sum of cells does not depend on how it is
  bracketed. The kernel's arrangement is  0 + Σ_{c<2} acc_c,  where  acc_c  adds blocks  64c … 64c+63  to an
  accumulator that starts at 0; a block is the sum of 8192 rows; a row is its four cells added from 0. Read from
  the inside out:
    • a row's accumulation from 0 is the sum of its four cells;
    • a core's accumulator after step j is the sum of its blocks 0 … j;
    • two runs of 64 blocks are the 128 blocks; 128 blocks of 8192 rows are the 1048576 rows;
    • the sum over rows of the sum over sides is the sum over the index set of the [1048576, 4] array.
  The products stay inside the cells, so no distributive law is used.
-/
import proofs.«110796_j13116830122188_2_alg».proof.Proof.LossSpec
import proofs.«110796_j13116830122188_2_alg».proof.Proof.LibBlockSum
import proofs.«110796_j13116830122188_2_alg».proof.Proof.LibFiniteEntries
import proofs.«110796_j13116830122188_2_alg».proof.Pre_finite_inputs

open scoped BigOperators

noncomputable section

namespace Cert.SumBridge

open Idealize.ShloMosaic Idealize.ShloMosaic.ValueIdx Cert.RowLoss Cert.LossSpec

/-- The word 0x00000000 denotes 0. -/
theorem w0_eq_zero : (w0 : E) = 0 := Ideal.ofBits_zero_f32

/-- A core's accumulator after step `j` is the sum of its blocks `0 … j`. -/
theorem coreAcc_eq_sum (x0 : Pred) (x1 : Target) (x2 : Weight) (base j : ℕ) :
    coreAcc x0 x1 x2 base j = ∑ i ∈ Finset.range (j + 1), blockSum x0 x1 x2 (base + i) := by
  induction j with
  | zero =>
    show w0 + blockSum x0 x1 x2 base = _
    rw [w0_eq_zero, zero_add, Finset.sum_range_one, Nat.add_zero]
  | succ j ih =>
    show coreAcc x0 x1 x2 base j + blockSum x0 x1 x2 (base + (j + 1)) = _
    rw [ih, Finset.sum_range_succ _ (j + 1)]

/-- The two cores' accumulators together are the sum of all 128 blocks. -/
theorem sum_cores (x0 : Pred) (x1 : Target) (x2 : Weight) :
    ∑ c : Fin 2, coreAcc x0 x1 x2 (c.val * 64) 63 = ∑ b : Fin (2 * 64), blockSum x0 x1 x2 b.val := by
  rw [LibBlockSum.sum_blocks 2 64 (fun b => blockSum x0 x1 x2 b.val)]
  refine Finset.sum_congr rfl fun c _ => ?_
  rw [coreAcc_eq_sum]
  exact Finset.sum_range (fun i => blockSum x0 x1 x2 (c.val * 64 + i))

/-- The 128 blocks of 8192 rows are the 1048576 rows. -/
theorem sum_blocks_rows (x0 : Pred) (x1 : Target) (x2 : Weight) :
    ∑ b : Fin 128, blockSum x0 x1 x2 b.val = ∑ n : Fin (128 * 8192), rowAcc x0 x1 x2 n.val := by
  rw [LibBlockSum.sum_blocks 128 8192 (fun n => rowAcc x0 x1 x2 n.val)]
  refine Finset.sum_congr rfl fun b _ => ?_
  rfl

/-- A row's accumulation from 0 is the sum of its four cells. -/
theorem rowAcc_eq_sum (x0 : Pred) (x1 : Target) (x2 : Weight) (n : Fin 1048576) :
    rowAcc x0 x1 x2 n.val = ∑ k : Fin 4, cell kernelSide x0 x1 x2 n k := by
  have hn : rowOf n.val = n := Fin.ext (Nat.mod_eq_of_lt n.isLt)
  unfold rowAcc
  rw [hn, w0_eq_zero, zero_add, Fin.sum_univ_four]

/-- The kernel's arrangement of the sum is the reference's, once the two spellings of a side's loss agree on
    every cell. -/
theorem kernelLoss_eq_refLoss (x0 : Pred) (x1 : Target) (x2 : Weight)
    (hside : ∀ (n : Fin 1048576) (k : Fin 4),
      kernelSide (scores x0 n k) (x1 (ix2 n k)) = referenceSide (scores x0 n k) (x1 (ix2 n k))) :
    kernelLoss x0 x1 x2 = refLoss x0 x1 x2 := by
  have hcell : ∀ n k, cell kernelSide x0 x1 x2 n k = cell referenceSide x0 x1 x2 n k := fun n k => by
    unfold cell; rw [hside n k]
  have hsum : ∑ c : Fin 2, coreAcc x0 x1 x2 (c.val * 64) 63
      = ∑ i : (⟨2, ![1048576, 4]⟩ : Shape).Idx, cell referenceSide x0 x1 x2 (i 0) (i 1) := by
    rw [sum_idx2 (n0 := 1048576) (n1 := 4) (fun i => cell referenceSide x0 x1 x2 (i 0) (i 1))]
    calc ∑ c : Fin 2, coreAcc x0 x1 x2 (c.val * 64) 63
        = ∑ b : Fin 128, blockSum x0 x1 x2 b.val := sum_cores x0 x1 x2
      _ = ∑ n : Fin 1048576, rowAcc x0 x1 x2 n.val := sum_blocks_rows x0 x1 x2
      _ = ∑ n : Fin 1048576, ∑ k : Fin 4, cell referenceSide x0 x1 x2 n k :=
          Finset.sum_congr rfl fun n _ => by
            rw [rowAcc_eq_sum]; exact Finset.sum_congr rfl fun k _ => hcell n k
  unfold kernelLoss refLoss
  rw [hsum]

/-! ## Finiteness read off the precondition -/

/-- The precondition is  all(|pred| < +∞) ∧ all(|target| < +∞) ∧ all(|weight| < +∞).  If it holds, every entry of
    each of the three arrays is a real number: a conjunction of two bits that is 1 has both bits 1, and each bit
    is one finiteness test of one array. -/
theorem real_of_pre [Cert.Pre_finite_inputs.Facts]
    (a0 : FVec Ideal Cert.Pre_finite_inputs.S1048576x64 .f32)
    (a1 : FVec Ideal Cert.Pre_finite_inputs.S1048576x4 .f32)
    (a2 : FVec Ideal Cert.Pre_finite_inputs.S1048576x1 .f32)
    (h : Cert.Pre_finite_inputs.fn (F := Ideal) a0 a1 a2 = fun _ => 1#1) :
    (∀ i, ∃ r : ℝ, a0 i = (r : EReal)) ∧ (∀ i, ∃ r : ℝ, a1 i = (r : EReal))
      ∧ (∀ i, ∃ r : ℝ, a2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨Cert.LibFiniteEntries.real_of_all a0 _ _ _ _ _ h0',
    Cert.LibFiniteEntries.real_of_all a1 _ _ _ _ _ h1,
    Cert.LibFiniteEntries.real_of_all a2 _ _ _ _ _ h2⟩

end Cert.SumBridge

end
-- ==== Proof.lean ====
/-
  The distribution-focal loss, kernel against reference: the certificate's claims assembled.

  For every row `n` and box side `k` the sixteen scores `pred[n, 16k … 16k+15]` are compared with the two-hot label of
  the clipped target `target[n, k]` by a Kullback–Leibler divergence, weighted by `weight[n]`, and the mean over all
  `1048576 · 4` cells is returned. The reference sums `td·(log td - logp)` over the bins where the label is positive;
  the kernel uses the closed form `[wl·log wl]₊ + [wr·log wr]₊ - Σ td·s + lse` (the label sums to one), adds the four
  sides per row, the rows per block of 8192, the 64 blocks of each of two cores into one accumulator each, and lets
  the host add the two and divide.

  * The kernel's run ends at `kernelLoss` of the arguments (KernelValue: one grid step read at an index, the
    accumulator by induction on the point, the written-back slabs, the host's tail).
  * The reference's run ends at `refLoss` of the arguments (RefSide, over the reference's run read one operation at
    a time).
  * Under the precondition every input is a real number (SumBridge.real_of_pre), so the two spellings of a side's
    loss agree on every cell (RowLossEq.side_eq: there distributivity of the real numbers is used, `wl·L + wr·L = L`),
    and a sum of cells does not depend on its bracketing (SumBridge.kernelLoss_eq_refLoss).
  The three frames are the generated frame runs (the reference's: its run with the result forgotten); the ideal pass
  rewrote nothing, so `preserves` is `True`.
-/
import proofs.«110796_j13116830122188_2_alg».proof.Defs
import proofs.«110796_j13116830122188_2_alg».proof.Proof.Gen.Kernel
import proofs.«110796_j13116830122188_2_alg».proof.Proof.Gen.Kernel.Skeleton
import proofs.«110796_j13116830122188_2_alg».proof.Proof.Gen.Kernel.Launch
import proofs.«110796_j13116830122188_2_alg».proof.Proof.Gen.Kernel.Points
import proofs.«110796_j13116830122188_2_alg».proof.Proof.Gen.Kernel.Frame
import proofs.«110796_j13116830122188_2_alg».proof.Proof.Gen.KernelIdeal
import proofs.«110796_j13116830122188_2_alg».proof.Proof.Gen.KernelIdeal.Skeleton
import proofs.«110796_j13116830122188_2_alg».proof.Proof.Gen.KernelIdeal.Launch
import proofs.«110796_j13116830122188_2_alg».proof.Proof.Gen.KernelIdeal.Points
import proofs.«110796_j13116830122188_2_alg».proof.Proof.Gen.KernelIdeal.Frame
import proofs.«110796_j13116830122188_2_alg».proof.Proof.Gen.ReferenceIdeal
import proofs.«110796_j13116830122188_2_alg».proof.Proof.Gen.Pre_finite_inputs
import proofs.«110796_j13116830122188_2_alg».proof.Proof.KernelValue
import proofs.«110796_j13116830122188_2_alg».proof.Proof.RefSide
import proofs.«110796_j13116830122188_2_alg».proof.Proof.RowLossEq
import proofs.«110796_j13116830122188_2_alg».proof.Proof.SumBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the same extended real: the kernel at `kernelLoss`, the reference at `refLoss` of arguments
    that agree, and the two are equal where every input is real. -/
theorem algebraic : Cert.algebraic_KernelIdeal_ReferenceIdeal := by
  intro m ρ m' ρ' hpre hagree
  refine ⟨fun c _ => Cert.LossSpec.kernelLoss (Cert.KernelIdeal.Loss.X0 m c) (Cert.KernelIdeal.Loss.X1 m c) (Cert.KernelIdeal.Loss.X2 m c),
    Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.RefSide.ref_value, (hagree c).1, (hagree c).2.1, (hagree c).2.2]
  obtain ⟨h0, h1, -⟩ := Cert.SumBridge.real_of_pre _ _ _ (hpre c)
  exact funext fun _ => (Cert.SumBridge.kernelLoss_eq_refLoss _ _ _ fun n k =>
    Cert.RowLoss.side_eq _ _ (fun j => h0 _) (h1 _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
